-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x512 : Shape := ⟨3, ![64, 1024, 512]⟩
abbrev S64x1024x1024 : Shape := ⟨3, ![64, 1024, 1024]⟩
abbrev S1024x512 : Shape := ⟨2, ![1024, 512]⟩
abbrev S1024 : Shape := ⟨1, ![1024]⟩
abbrev S256x1024 : Shape := ⟨2, ![256, 1024]⟩
abbrev S256 : Shape := ⟨1, ![256]⟩
abbrev S_ : Shape := ⟨0, ![]⟩
abbrev S1024x1024 : Shape := ⟨2, ![1024, 1024]⟩
abbrev S1x1024x1024 : Shape := ⟨3, ![1, 1024, 1024]⟩
abbrev S64x1024 : Shape := ⟨2, ![64, 1024]⟩

class Facts : Prop where
  bcast_S_S64x1024x512 : S_.BroadcastsInDim S64x1024x512 (![] : Fin 0 → Fin S64x1024x512.rank)
  reducesTo_S64x1024x512_S_d0_1_2 : S64x1024x512.ReducesTo [0, 1, 2] S_
  h_S_ : 0 < S_.numel
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S64x1024x1024_0_1_2 : S1x1024x1024.BroadcastsInDim S64x1024x1024 (![0, 1, 2] : Fin 3 → Fin S64x1024x1024.rank)
  reducesTo_S64x1024x1024_S64x1024_d2 : S64x1024x1024.ReducesTo [2] S64x1024
  bcast_S_S64x1024 : S_.BroadcastsInDim S64x1024 (![] : Fin 0 → Fin S64x1024.rank)
  reducesTo_S64x1024_S_d0_1 : S64x1024.ReducesTo [0, 1] S_

variable [Facts]

def fn_part3 {F : FTy → Type} [FloatOps F] (main_v38 : IVec S_ 1) (main_v50 : FVec F S64x1024 .f32) (main_v51 : FVec F S64x1024 .f32) : IVec S_ 1 :=
  let main_v52 : IVec S64x1024 1 := cmpf .ogt main_v50 main_v51
  let main_c_18 : IVec S_ 1 := constantI S_ 1 1#1
  let main_v53 : IVec S_ 1 := (fun x v => Host.reduce IntOp.andi x v reducesTo_S64x1024_S_d0_1 h_S_) main_v52 main_c_18
  let main_v54 : IVec S_ 1 := andi main_v38 main_v53
  main_v54

def fn_part2 {F : FTy → Type} [FloatOps F] (main_arg1 : FVec F S64x1024x1024 .f32) (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : IVec S1024x1024 32 := iotaInDim S1024x1024 32 0
  let main_v40 : IVec S1024x1024 32 := iotaInDim S1024x1024 32 1
  let main_c_14 : IVec S_ 32 := constantI S_ 32 0#32
  let main_v41 : IVec S1024x1024 32 := broadcastInDim S1024x1024 ![] bcast_S_S1024x1024 main_c_14
  let main_v42 : IVec S1024x1024 32 := addi main_v39 main_v41
  let main_v43 : IVec S1024x1024 1 := cmpi .eq main_v42 main_v40
  let main_v44 : FVec F S1024x1024 .f32 := uitofp .f32 main_v43
  let main_v45 : FVec F S1x1024x1024 .f32 := broadcastInDim S1x1024x1024 ![1, 2] bcast_S1024x1024_S1x1024x1024_1_2 main_v44
  let main_v46 : FVec F S64x1024x1024 .f32 := broadcastInDim S64x1024x1024 ![0, 1, 2] bcast_S1x1024x1024_S64x1024x1024_0_1_2 main_v45
  let main_v47 : FVec F S64x1024x1024 .f32 := addf main_arg1 main_v46
  let main_cst_15 : FVec F S_ .f32 := constant S_ .f32 0x00000000#32
  let main_v48 : FVec F S64x1024 .f32 := (fun x v => Host.reduceAdd x v reducesTo_S64x1024x1024_S64x1024_d2 h_S_) main_v47 main_cst_15
  let main_cst_16 : FVec F S_ .f32 := constant S_ .f32 0x322BCC77#32
  let main_v49 : FVec F S64x1024 .f32 := broadcastInDim S64x1024 ![] bcast_S_S64x1024 main_cst_16
  let main_v50 : FVec F S64x1024 .f32 := addf main_v48 main_v49
  let main_cst_17 : FVec F S_ .f32 := constant S_ .f32 0x00000000#32
  let main_v51 : FVec F S64x1024 .f32 := broadcastInDim S64x1024 ![] bcast_S_S64x1024 main_cst_17
  fn_part3 (F := F) main_v38 main_v50 main_v51

def fn_part1 {F : FTy → Type} [FloatOps F] (main_arg1 : FVec F S64x1024x1024 .f32) (main_arg4 : FVec F S256x1024 .f32) (main_arg5 : FVec F S256 .f32) (main_arg6 : FVec F S256x1024 .f32) (main_arg7 : FVec F S256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x1024 .f32 := Host.absf main_arg6
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg1 main_arg7 main_v33

def fn {F : FTy → Type} [FloatOps F] (main_arg0 : FVec F S64x1024x512 .f32) (main_arg1 : FVec F S64x1024x1024 .f32) (main_arg2 : FVec F S1024x512 .f32) (main_arg3 : FVec F S1024 .f32) (main_arg4 : FVec F S256x1024 .f32) (main_arg5 : FVec F S256 .f32) (main_arg6 : FVec F S256x1024 .f32) (main_arg7 : FVec F S256 .f32) : IVec S_ 1 :=
  let main_v0 : FVec F S64x1024x512 .f32 := Host.absf main_arg0
  let main_cst : FVec F S_ .f32 := constant S_ .f32 0x7F800000#32
  let main_v1 : FVec F S64x1024x512 .f32 := broadcastInDim S64x1024x512 ![] bcast_S_S64x1024x512 main_cst
  let main_v2 : IVec S64x1024x512 1 := cmpf .olt main_v0 main_v1
  let main_c : IVec S_ 1 := constantI S_ 1 1#1
  let main_v3 : IVec S_ 1 := (fun x v => Host.reduce IntOp.andi x v reducesTo_S64x1024x512_S_d0_1_2 h_S_) main_v2 main_c
  let main_v4 : FVec F S64x1024x1024 .f32 := Host.absf main_arg1
  let main_cst_0 : FVec F S_ .f32 := constant S_ .f32 0x7F800000#32
  let main_v5 : FVec F S64x1024x1024 .f32 := broadcastInDim S64x1024x1024 ![] bcast_S_S64x1024x1024 main_cst_0
  let main_v6 : IVec S64x1024x1024 1 := cmpf .olt main_v4 main_v5
  let main_c_1 : IVec S_ 1 := constantI S_ 1 1#1
  let main_v7 : IVec S_ 1 := (fun x v => Host.reduce IntOp.andi x v reducesTo_S64x1024x1024_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_arg4 main_arg5 main_arg6 main_arg7 main_v13 main_v16
-- ==== Kernel.lean ====
abbrev S64x1024x512 : Shape := ⟨3, ![64, 1024, 512]⟩
abbrev S64x1024x1024 : Shape := ⟨3, ![64, 1024, 1024]⟩
abbrev S1024x512 : Shape := ⟨2, ![1024, 512]⟩
abbrev S1024 : Shape := ⟨1, ![1024]⟩
abbrev S256x1024 : Shape := ⟨2, ![256, 1024]⟩
abbrev S256 : Shape := ⟨1, ![256]⟩
abbrev S512x1024 : Shape := ⟨2, ![512, 1024]⟩
abbrev S512 : Shape := ⟨1, ![512]⟩
abbrev S1x512 : Shape := ⟨2, ![1, 512]⟩
abbrev S1x1024 : Shape := ⟨2, ![1, 1024]⟩
abbrev S64x1024x256 : Shape := ⟨3, ![64, 1024, 256]⟩
abbrev S1x1024x1024 : Shape := ⟨3, ![1, 1024, 1024]⟩
abbrev S1x1024x512 : Shape := ⟨3, ![1, 1024, 512]⟩
abbrev S1x1024x256 : Shape := ⟨3, ![1, 1024, 256]⟩
abbrev S1024x1024 : Shape := ⟨2, ![1024, 1024]⟩
abbrev S1024x1 : Shape := ⟨2, ![1024, 1]⟩
abbrev S1024x256 : Shape := ⟨2, ![1024, 256]⟩

abbrev nBuf : Space → Nat
  | .hbm => 18
  | .vmem => 12
  | .smem => 0
  | _ => 0

abbrev bufTy : (tb : Table) → Fin (tcTables nBuf tb) → BufTy
  | .hbm, ⟨0, _⟩ => ⟨S64x1024x512, .f32⟩
  | .hbm, ⟨1, _⟩ => ⟨S64x1024x1024, .f32⟩
  | .hbm, ⟨2, _⟩ => ⟨S1024x512, .f32⟩
  | .hbm, ⟨3, _⟩ => ⟨S1024, .f32⟩
  | .hbm, ⟨4, _⟩ => ⟨S256x1024, .f32⟩
  | .hbm, ⟨5, _⟩ => ⟨S256, .f32⟩
  | .hbm, ⟨6, _⟩ => ⟨S256x1024, .f32⟩
  | .hbm, ⟨7, _⟩ => ⟨S256, .f32⟩
  | .hbm, ⟨8, _⟩ => ⟨S512x1024, .f32⟩
  | .hbm, ⟨9, _⟩ => ⟨S512x1024, .bf16⟩
  | .hbm, ⟨10, _⟩ => ⟨S512x1024, .f32⟩
  | .hbm, ⟨11, _⟩ => ⟨S1024x512, .f32⟩
  | .hbm, ⟨12, _⟩ => ⟨S1024x512, .bf16⟩
  | .hbm, ⟨13, _⟩ => ⟨S512, .f32⟩
  | .hbm, ⟨14, _⟩ => ⟨S1x512, .f32⟩
  | .hbm, ⟨15, _⟩ => ⟨S1x1024, .f32⟩
  | .hbm, ⟨16, _⟩ => ⟨S64x1024x256, .f32⟩
  | .hbm, ⟨17, _⟩ => ⟨S64x1024x256, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S512x1024, .bf16⟩
  | .local _ .vmem, ⟨5, _⟩ => ⟨S1x1024, .f32⟩
  | .local _ .vmem, ⟨6, _⟩ => ⟨S1024x512, .bf16⟩
  | .local _ .vmem, ⟨7, _⟩ => ⟨S1x512, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | _, _ => ⟨S64x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x512_S512x1024_1_0 : S1024x512.Transposes [1, 0] S512x1024
  bitsLt_bf16_f32 : FTy.bits .bf16 < FTy.bits .f32
  concatenates_S256x1024_S256x1024_S512x1024_d0 : Shape.Concatenates [S256x1024, S256x1024] S512x1024 0
  transposes_S512x1024_S1024x512_1_0 : S512x1024.Transposes [1, 0] S1024x512
  concatenates_S256_S256_S512_d0 : Shape.Concatenates [S256, S256] S512 0
  shapeCasts_S512_S1x512 : S512.ShapeCasts S1x512
  shapeCasts_S1024_S1x1024 : S1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S1024x1024_S1024 : S1024x1024.Reduces [1] S1024
  shapeCasts_S1024_S1024x1 : S1024.ShapeCasts S1024x1
  broadcasts_S1024x1_S1024x512 : S1024x1.Broadcasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x512_o0_0_S1024x256 : S1024x512.Slices ![0, 0] S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  slices_S1024x512_o0_256_S1024x256 : S1024x512.Slices ![0, 256] S1024x256
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S64x1024x1024.size a
  hwx0_0 : ∀ i : grid0.Coords, EltTy.bits .f32 = 32 ∨ (Rect.block (s := S64x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S64x1024x512.size a
  hwx0_1 : ∀ i : grid0.Coords, EltTy.bits .f32 = 32 ∨ (Rect.block (s := S64x1024x512) S1x1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x256.size a ≤ S64x1024x256.size a
  hwx0_6 : ∀ i : grid0.Coords, EltTy.bits .f32 = 32 ∨ (Rect.block (s := S64x1024x256) S1x1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x256.size a ≤ S64x1024x256.size a
  hwx0_7 : ∀ i : grid0.Coords, EltTy.bits .f32 = 32 ∨ (Rect.block (s := S64x1024x256) S1x1024x256.size (cc0_transform_7 i) (hinb0_7 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S1x1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S1x1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x1024x512 : Shape := ⟨3, ![64, 1024, 512]⟩
abbrev S64x1024x1024 : Shape := ⟨3, ![64, 1024, 1024]⟩
abbrev S1024x512 : Shape := ⟨2, ![1024, 512]⟩
abbrev S1024 : Shape := ⟨1, ![1024]⟩
abbrev S256x1024 : Shape := ⟨2, ![256, 1024]⟩
abbrev S256 : Shape := ⟨1, ![256]⟩
abbrev S1024x1024 : Shape := ⟨2, ![1024, 1024]⟩
abbrev S_ : Shape := ⟨0, ![]⟩
abbrev S1x1024x1024 : Shape := ⟨3, ![1, 1024, 1024]⟩
abbrev S64x1024 : Shape := ⟨2, ![64, 1024]⟩
abbrev S64x1024x1 : Shape := ⟨3, ![64, 1024, 1]⟩
abbrev S64x1x1024 : Shape := ⟨3, ![64, 1, 1024]⟩
abbrev S1x1x1024 : Shape := ⟨3, ![1, 1, 1024]⟩
abbrev S64x1024x256 : Shape := ⟨3, ![64, 1024, 256]⟩
abbrev S1x1x256 : Shape := ⟨3, ![1, 1, 256]⟩

abbrev nBuf : Space → Nat
  | .hbm => 48
  | .vmem => 0
  | .smem => 0
  | _ => 0

abbrev bufTy : (tb : Table) → Fin (tcTables nBuf tb) → BufTy
  | .hbm, ⟨0, _⟩ => ⟨S64x1024x512, .f32⟩
  | .hbm, ⟨1, _⟩ => ⟨S64x1024x1024, .f32⟩
  | .hbm, ⟨2, _⟩ => ⟨S1024x512, .f32⟩
  | .hbm, ⟨3, _⟩ => ⟨S1024, .f32⟩
  | .hbm, ⟨4, _⟩ => ⟨S256x1024, .f32⟩
  | .hbm, ⟨5, _⟩ => ⟨S256, .f32⟩
  | .hbm, ⟨6, _⟩ => ⟨S256x1024, .f32⟩
  | .hbm, ⟨7, _⟩ => ⟨S256, .f32⟩
  | .hbm, ⟨8, _⟩ => ⟨S1024x1024, .i32⟩
  | .hbm, ⟨9, _⟩ => ⟨S1024x1024, .i32⟩
  | .hbm, ⟨10, _⟩ => ⟨S_, .i32⟩
  | .hbm, ⟨11, _⟩ => ⟨S1024x1024, .i32⟩
  | .hbm, ⟨12, _⟩ => ⟨S1024x1024, .i32⟩
  | .hbm, ⟨13, _⟩ => ⟨S1024x1024, .i1⟩
  | .hbm, ⟨14, _⟩ => ⟨S1024x1024, .f32⟩
  | .hbm, ⟨15, _⟩ => ⟨S1x1024x1024, .f32⟩
  | .hbm, ⟨16, _⟩ => ⟨S64x1024x1024, .f32⟩
  | .hbm, ⟨17, _⟩ => ⟨S64x1024x1024, .f32⟩
  | .hbm, ⟨18, _⟩ => ⟨S_, .f32⟩
  | .hbm, ⟨19, _⟩ => ⟨S64x1024, .f32⟩
  | .hbm, ⟨20, _⟩ => ⟨S_, .f32⟩
  | .hbm, ⟨21, _⟩ => ⟨S64x1024, .f32⟩
  | .hbm, ⟨22, _⟩ => ⟨S64x1024, .f32⟩
  | .hbm, ⟨23, _⟩ => ⟨S_, .f32⟩
  | .hbm, ⟨24, _⟩ => ⟨S64x1024, .f32⟩
  | .hbm, ⟨25, _⟩ => ⟨S64x1024, .f32⟩
  | .hbm, ⟨26, _⟩ => ⟨S64x1024x1, .f32⟩
  | .hbm, ⟨27, _⟩ => ⟨S64x1024x1024, .f32⟩
  | .hbm, ⟨28, _⟩ => ⟨S64x1024x1024, .f32⟩
  | .hbm, ⟨29, _⟩ => ⟨S64x1x1024, .f32⟩
  | .hbm, ⟨30, _⟩ => ⟨S64x1024x1024, .f32⟩
  | .hbm, ⟨31, _⟩ => ⟨S64x1024x1024, .f32⟩
  | .hbm, ⟨32, _⟩ => ⟨S64x1024x512, .f32⟩
  | .hbm, ⟨33, _⟩ => ⟨S64x1024x1024, .f32⟩
  | .hbm, ⟨34, _⟩ => ⟨S1x1x1024, .f32⟩
  | .hbm, ⟨35, _⟩ => ⟨S64x1024x1024, .f32⟩
  | .hbm, ⟨36, _⟩ => ⟨S64x1024x1024, .f32⟩
  | .hbm, ⟨37, _⟩ => ⟨S_, .f32⟩
  | .hbm, ⟨38, _⟩ => ⟨S64x1024x1024, .f32⟩
  | .hbm, ⟨39, _⟩ => ⟨S64x1024x1024, .f32⟩
  | .hbm, ⟨40, _⟩ => ⟨S64x1024x256, .f32⟩
  | .hbm, ⟨41, _⟩ => ⟨S1x1x256, .f32⟩
  | .hbm, ⟨42, _⟩ => ⟨S64x1024x256, .f32⟩
  | .hbm, ⟨43, _⟩ => ⟨S64x1024x256, .f32⟩
  | .hbm, ⟨44, _⟩ => ⟨S64x1024x256, .f32⟩
  | .hbm, ⟨45, _⟩ => ⟨S1x1x256, .f32⟩
  | .hbm, ⟨46, _⟩ => ⟨S64x1024x256, .f32⟩
  | .hbm, ⟨47, _⟩ => ⟨S64x1024x256, .f32⟩
  | _, _ => ⟨S64x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S64x1024x1024_0_1_2 : S1x1024x1024.BroadcastsInDim S64x1024x1024 (![0, 1, 2] : Fin 3 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  bcast_S64x1024_S64x1x1024_0_2 : S64x1024.BroadcastsInDim S64x1x1024 (![0, 2] : Fin 2 → Fin S64x1x1024.rank)
  bcast_S64x1x1024_S64x1024x1024_0_1_2 : S64x1x1024.BroadcastsInDim S64x1024x1024 (![0, 1, 2] : Fin 3 → Fin S64x1024x1024.rank)
  bcast_S1024_S1x1x1024_2 : S1024.BroadcastsInDim S1x1x1024 (![2] : Fin 1 → Fin S1x1x1024.rank)
  bcast_S1x1x1024_S64x1024x1024_0_1_2 : S1x1x1024.BroadcastsInDim S64x1024x1024 (![0, 1, 2] : Fin 3 → Fin S64x1024x1024.rank)
  bcast_S_S64x1024x1024 : S_.BroadcastsInDim S64x1024x1024 (![] : Fin 0 → Fin S64x1024x1024.rank)
  bcast_S256_S1x1x256_2 : S256.BroadcastsInDim S1x1x256 (![2] : Fin 1 → Fin S1x1x256.rank)
  bcast_S1x1x256_S64x1024x256_0_1_2 : S1x1x256.BroadcastsInDim S64x1024x256 (![0, 1, 2] : Fin 3 → Fin S64x1024x256.rank)
  dot_S64x1024x1024_S64x1024x512_S64x1024x512_2_1_1_2_0_0_wf : DotDims.WF S64x1024x1024 S64x1024x512 S64x1024x512 [2] [1] [1] [2] [0] [0]
  dot_S64x1024x512_S1024x512_S64x1024x1024_2_1_01_0_n_n_wf : DotDims.WF S64x1024x512 S1024x512 S64x1024x1024 [2] [1] [0, 1] [0] [] []
  dot_S64x1024x1024_S256x1024_S64x1024x256_2_1_01_0_n_n_wf : DotDims.WF S64x1024x1024 S256x1024 S64x1024x256 [2] [1] [0, 1] [0] [] []

variable [Facts₀]

def dot_S64x1024x1024_S64x1024x512_S64x1024x512_2_1_1_2_0_0 : DotDims S64x1024x1024 S64x1024x512 S64x1024x512 where
  lhsContracting := [2]
  rhsContracting := [1]
  lhsNonContracting := [1]
  rhsNonContracting := [2]
  lhsBatch := [0]
  rhsBatch := [0]
  wf := dot_S64x1024x1024_S64x1024x512_S64x1024x512_2_1_1_2_0_0_wf
def dot_S64x1024x512_S1024x512_S64x1024x1024_2_1_01_0_n_n : DotDims S64x1024x512 S1024x512 S64x1024x1024 where
  lhsContracting := [2]
  rhsContracting := [1]
  lhsNonContracting := [0, 1]
  rhsNonContracting := [0]
  lhsBatch := []
  rhsBatch := []
  wf := dot_S64x1024x512_S1024x512_S64x1024x1024_2_1_01_0_n_n_wf
def dot_S64x1024x1024_S256x1024_S64x1024x256_2_1_01_0_n_n : DotDims S64x1024x1024 S256x1024 S64x1024x256 where
  lhsContracting := [2]
  rhsContracting := [1]
  lhsNonContracting := [0, 1]
  rhsNonContracting := [0]
  lhsBatch := []
  rhsBatch := []
  wf := dot_S64x1024x1024_S256x1024_S64x1024x256_2_1_01_0_n_n_wf

class Facts : Prop extends Facts₀ where

variable [Facts]
-- ==== Proof.GcnSpec.lean ====
/-
  The graph-convolution encoder as ONE function of its eight argument arrays, index by index, on the extended reals.

  Per batch element `b`, with `a = A[b]` (an N×N matrix, N = 1024) and `x = X[b]` (N×512):
    * the degree of row `n` of `a + I` is the row sum of `a` plus one; the normaliser is `d n = (deg n + ε)^(-1/2)`;
    * message passing: `h n k = Σ_m ((a + I) n m · d n · d m) · x m k`;
    * hidden layer: `g n j = max (Σ_k h n k · W1 j k + b1 j) 0`;
    * a head with weights `W` (256×1024) and bias `β`: `out n l = Σ_j g n j · W l j + β l`.
  Two arrangements of the first two lines are stated, because the two programs compute them differently:
  `hR` forms `a + I`, scales it by `d n` and `d m` entrywise and then contracts with `x`, taking the normaliser as a
  power with exponent -1/2; `hK` never forms `a + I`: it contracts `a` with the rows of `x` scaled by `d m`, scales the
  result by `d n`, and adds `d n² · x n k` for the identity's diagonal, taking the normaliser as a reciprocal square
  root. The two agree where every entry of `a` and `x` is a real number and every `deg n + ε` is positive
  (GcnAlgebra.lean).
-/
import Idealize.ShloMosaic.PureOps.Ideal
import Idealize.ShloMosaic.Lib.ValueIdx

noncomputable section

namespace Cert.Gcn

open Idealize.ShloMosaic Idealize.ShloMosaic.ValueIdx
open scoped BigOperators

/-- The shapes of the arguments and of a result. -/
abbrev SA : Shape := ⟨3, ![64, 1024, 1024]⟩
abbrev SX : Shape := ⟨3, ![64, 1024, 512]⟩
abbrev SW1 : Shape := ⟨2, ![1024, 512]⟩
abbrev SB1 : Shape := ⟨1, ![1024]⟩
abbrev SWh : Shape := ⟨2, ![256, 1024]⟩
abbrev SBh : Shape := ⟨1, ![256]⟩
abbrev SO : Shape := ⟨3, ![64, 1024, 256]⟩

/-- The stabiliser both programs add to a degree: the float nearest 1e-8, the same word on both sides. -/
abbrev eps : EReal := Ideal.ofBits .f32 0x322BCC77#32
/-- The float 1.0 the kernel adds to a row sum of `a` (the identity's contribution to the degree). -/
abbrev oneK : EReal := Ideal.ofBits .f32 0x3F800000#32
/-- The exponent -0.5 of the reference's power. -/
abbrev negHalf : EReal := Ideal.ofBits .f32 0xBF000000#32

/-- The identity matrix's entry. -/
def eye (n m : Fin 1024) : EReal := if n = m then 1 else 0

/-- Degree plus stabiliser, as the reference forms it: the row sum of `a + I`, plus ε. -/
def vR (a : SA.Idx → EReal) (b : Fin 64) (n : Fin 1024) : EReal :=
  (∑ m : Fin 1024, (a (ix3 b n m) + eye n m)) + eps

/-- Degree plus stabiliser, as the kernel forms it: the row sum of `a`, plus one, plus ε. -/
def vK (a : SA.Idx → EReal) (b : Fin 64) (n : Fin 1024) : EReal :=
  ((∑ m : Fin 1024, a (ix3 b n m)) + oneK) + eps

/-- The reference's normaliser: a power with exponent -1/2. -/
def dR (a : SA.Idx → EReal) (b : Fin 64) (n : Fin 1024) : EReal := Ideal.pow (vR a b n) negHalf

/-- The kernel's normaliser: a reciprocal square root. -/
def dK (a : SA.Idx → EReal) (b : Fin 64) (n : Fin 1024) : EReal := Ideal.rsqrt (vK a b n)

/-- Message passing as the reference arranges it: the normalised adjacency matrix, entry by entry, contracted with `x`. -/
def hR (a : SA.Idx → EReal) (x : SX.Idx → EReal) (b : Fin 64) (n : Fin 1024) (k : Fin 512) : EReal :=
  ∑ m : Fin 1024, (((a (ix3 b n m) + eye n m) * dR a b n) * dR a b m) * x (ix3 b m k)

/-- Message passing as the kernel arranges it: `a` contracted with the rows of `x` scaled by their normalisers, the
    result scaled by the row's own normaliser, plus the diagonal term. -/
def hK (a : SA.Idx → EReal) (x : SX.Idx → EReal) (b : Fin 64) (n : Fin 1024) (k : Fin 512) : EReal :=
  dK a b n * (∑ m : Fin 1024, a (ix3 b n m) * (dK a b m * x (ix3 b m k))) + (dK a b n * dK a b n) * x (ix3 b n k)

/-- The hidden layer with a rectifier, then one linear head, from a message-passing result `h` of one batch element. -/
def head (h : Fin 1024 → Fin 512 → EReal) (W1 : SW1.Idx → EReal) (b1 : SB1.Idx → EReal)
    (W : SWh.Idx → EReal) (β : SBh.Idx → EReal) (n : Fin 1024) (l : Fin 256) : EReal :=
  (∑ j : Fin 1024, max ((∑ k : Fin 512, h n k * W1 (ix2 j k)) + b1 (ix1 j)) 0 * W (ix2 l j)) + β (ix1 l)

/-- A result array as the reference computes it. -/
def outR (a : SA.Idx → EReal) (x : SX.Idx → EReal) (W1 : SW1.Idx → EReal) (b1 : SB1.Idx → EReal)
    (W : SWh.Idx → EReal) (β : SBh.Idx → EReal) : SO.Idx → EReal :=
  fun i => head (hR a x (i 0)) W1 b1 W β (i 1) (i 2)

/-- A result array as the kernel computes it. -/
def outK (a : SA.Idx → EReal) (x : SX.Idx → EReal) (W1 : SW1.Idx → EReal) (b1 : SB1.Idx → EReal)
    (W : SWh.Idx → EReal) (β : SBh.Idx → EReal) : SO.Idx → EReal :=
  fun i => head (hK a x (i 0)) W1 b1 W β (i 1) (i 2)

/-! ## One grid point's block

The kernel runs once per batch element on that element's blocks: `P0` the 1×N×N block of `A`, `P1` the 1×N×512 block of
`X`, `P2` the whole 512×1024 transpose of `W1`, `P3` the bias `b1` as a 1×1024 row, `P4` the whole 1024×512 transpose of the
two heads' weights stacked. The same formulas as above, over the blocks. -/

abbrev SP0 : Shape := ⟨3, ![1, 1024, 1024]⟩
abbrev SP1 : Shape := ⟨3, ![1, 1024, 512]⟩
abbrev SP2 : Shape := ⟨2, ![512, 1024]⟩
abbrev SP3 : Shape := ⟨2, ![1, 1024]⟩
abbrev SP4 : Shape := ⟨2, ![1024, 512]⟩
abbrev SP5 : Shape := ⟨2, ![1, 512]⟩

/-- The kernel's normaliser of row `n` of a block. -/
def dB (P0 : SP0.Idx → EReal) (n : Fin 1024) : EReal :=
  Ideal.rsqrt (((∑ m : Fin 1024, P0 (ix3 (0 : Fin 1) n m)) + oneK) + eps)

/-- The kernel's message passing on a block. -/
def hB (P0 : SP0.Idx → EReal) (P1 : SP1.Idx → EReal) (n : Fin 1024) (k : Fin 512) : EReal :=
  dB P0 n * (∑ m : Fin 1024, P0 (ix3 (0 : Fin 1) n m) * (dB P0 m * P1 (ix3 (0 : Fin 1) m k)))
    + (dB P0 n * dB P0 n) * P1 (ix3 (0 : Fin 1) n k)

/-- The block's hidden layer and the stacked heads before their bias: entry `(n, q)`, `q` over the 512 stacked columns. -/
def blockOut (P0 : SP0.Idx → EReal) (P1 : SP1.Idx → EReal) (P2 : SP2.Idx → EReal) (P3 : SP3.Idx → EReal)
    (P4 : SP4.Idx → EReal) (n : Fin 1024) (q : Fin 512) : EReal :=
  ∑ j : Fin 1024, max ((∑ k : Fin 512, hB P0 P1 n k * P2 (ix2 k j)) + P3 (ix2 (0 : Fin 1) j)) 0 * P4 (ix2 j q)

end Cert.Gcn

end
-- ==== Proof.GcnAlgebra.lean ====
/-
  The two arrangements of the normalised message passing agree.

  Fix a batch element. Write `a n m` for the adjacency entries, `δ n m` for the identity's, `v n = Σ_m (a n m + δ n m) + ε`
  for a row's degree plus the stabiliser, and `d n = v n ^ (-1/2)`.
    * The kernel's `(Σ_m a n m + 1) + ε` is `v n`: a finite sum of sums splits, and a row of the identity sums to one.
      This needs no finiteness (addition of extended reals is commutative and associative).
    * Where `v n` is a positive real, the reciprocal square root and the power with exponent -1/2 are the same real,
      `(√(v n))⁻¹`. (At zero and below they differ, which is why positivity is assumed.)
    * With every `a n m`, `x m k` and `d n` a real number,
        `d n · Σ_m a n m · (d m · x m k) + d n² · x n k  =  Σ_m ((a n m + δ n m) · d n · d m) · x m k`:
      distribute `(a + δ)`, pull `d n` out of the first sum, and collapse the second by the identity's entries.
      Distributivity and moving a factor across a sum are what fail at infinities, so the entries are taken real.
-/
import proofs.«179284_j4612794876702_2_alg».proof.Proof.GcnSpec

noncomputable section

namespace Cert.Gcn

open Idealize.ShloMosaic Idealize.ShloMosaic.ValueIdx
open scoped BigOperators

/-! ## The literals -/

/-- A 32-bit pattern whose exponent field is not all ones denotes a real number. -/
theorem ofBits_f32_real (w : BitVec 32) (h : (w.extractLsb' 23 8).toNat ≠ 2 ^ 8 - 1) :
    ∃ r : ℝ, Ideal.ofBits .f32 w = (r : EReal) := by
  show ∃ r : ℝ, Ideal.ieee 8 23 w = (r : EReal)
  unfold Ideal.ieee
  dsimp only
  rw [if_neg h]
  split_ifs <;> exact ⟨_, rfl⟩

/-- The stabiliser is a real number. -/
theorem eps_real : ∃ e : ℝ, eps = (e : EReal) := ofBits_f32_real _ (by decide)

/-- The kernel's added one is one. -/
theorem oneK_eq : oneK = 1 := by
  simp [oneK, Ideal.ofBits, Ideal.ieee, -EReal.coe_mul]; norm_num

/-- The reference's exponent is minus one half. -/
theorem negHalf_eq : negHalf = ((-(1 / 2) : ℝ) : EReal) := by
  simp [negHalf, Ideal.ofBits, Ideal.ieee, -EReal.coe_mul]; norm_num

/-! ## Sums of real numbers inside the extended reals -/

/-- The coercion commutes with a finite sum. -/
@[norm_cast] theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The identity's entry is a real number. -/
theorem eye_coe (n m : Fin 1024) : eye n m = (((if n = m then 1 else 0 : ℝ)) : EReal) := by
  unfold eye; split_ifs <;> simp

/-- A row of the identity sums to one. -/
theorem sum_eye (n : Fin 1024) : ∑ m : Fin 1024, eye n m = 1 := by
  simp [eye, Finset.sum_ite_eq]

/-! ## The degree -/

/-- The kernel's degree-plus-stabiliser is the reference's, for any entries. -/
theorem vK_eq_vR (a : SA.Idx → EReal) (b : Fin 64) (n : Fin 1024) : vK a b n = vR a b n := by
  unfold vK vR
  rw [Finset.sum_add_distrib, sum_eye, oneK_eq]

/-! ## The identity over the reals -/

/-- Message passing, the two arrangements, for real entries and any real normalisers. -/
theorem real_law {N : ℕ} (a : Fin N → Fin N → ℝ) (x : Fin N → ℝ) (d : Fin N → ℝ) (n : Fin N) :
    d n * (∑ m, a n m * (d m * x m)) + (d n * d n) * x n
      = ∑ m, (((a n m + if n = m then 1 else 0) * d n) * d m) * x m := by
  have h : ∀ m, (((a n m + if n = m then (1 : ℝ) else 0) * d n) * d m) * x m
      = d n * (a n m * (d m * x m)) + (if n = m then d n * d m * x m else 0) := by
    intro m; split_ifs <;> ring
  simp_rw [h, Finset.sum_add_distrib, ← Finset.mul_sum, Finset.sum_ite_eq, Finset.mem_univ, if_true]

/-! ## The two arrangements on the extended reals -/

/-- Where the entries of `a` and `x` are real numbers and every degree-plus-stabiliser of the batch element is
    positive, the kernel's message passing is the reference's. -/
theorem hK_eq_hR (a : SA.Idx → EReal) (x : SX.Idx → EReal)
    (ha : ∀ i, ∃ r : ℝ, a i = (r : EReal)) (hx : ∀ i, ∃ r : ℝ, x i = (r : EReal)) (b : Fin 64)
    (hpos : ∀ n, 0 < vR a b n) (n : Fin 1024) (k : Fin 512) : hK a x b n k = hR a x b n k := by
  choose a' ha' using ha
  choose x' hx' using hx
  obtain ⟨e, he⟩ := eps_real
  have hv : ∀ n, vR a b n
      = (((∑ m : Fin 1024, (a' (ix3 b n m) + if n = m then 1 else 0)) + e : ℝ) : EReal) := by
    intro n
    simp only [vR, ha', eye_coe, he]
    norm_cast
  have hrpos : ∀ n, 0 < (∑ m : Fin 1024, (a' (ix3 b n m) + if n = m then 1 else 0)) + e := by
    intro n
    have := hpos n
    rw [hv n] at this
    exact_mod_cast this
  have hdK : ∀ n, dK a b n
      = (((Real.sqrt ((∑ m : Fin 1024, (a' (ix3 b n m) + if n = m then 1 else 0)) + e))⁻¹ : ℝ) : EReal) := by
    intro n
    rw [dK, vK_eq_vR, hv n, Ideal.rsqrt_coe, if_neg (not_lt.mpr (hrpos n).le), if_neg (hrpos n).ne']
  have hdR : ∀ n, dR a b n
      = (((Real.sqrt ((∑ m : Fin 1024, (a' (ix3 b n m) + if n = m then 1 else 0)) + e))⁻¹ : ℝ) : EReal) := by
    intro n
    rw [dR, hv n, negHalf_eq, Ideal.pow_coe_coe]
    congr 1
    show ((∑ m : Fin 1024, (a' (ix3 b n m) + if n = m then 1 else 0)) + e) ^ (-(1 / 2) : ℝ) = _
    rw [Real.rpow_neg (hrpos n).le, Real.sqrt_eq_rpow]
  simp only [hK, hR, hdK, hdR, ha', hx', eye_coe]
  exact_mod_cast real_law (fun n m => a' (ix3 b n m)) (fun m => x' (ix3 b m k))
    (fun n => (Real.sqrt ((∑ m : Fin 1024, (a' (ix3 b n m) + if n = m then 1 else 0)) + e))⁻¹) n

/-- So the result arrays of the two arrangements are equal. -/
theorem outK_eq_outR (a : SA.Idx → EReal) (x : SX.Idx → EReal) (W1 : SW1.Idx → EReal) (b1 : SB1.Idx → EReal)
    (W : SWh.Idx → EReal) (β : SBh.Idx → EReal)
    (ha : ∀ i, ∃ r : ℝ, a i = (r : EReal)) (hx : ∀ i, ∃ r : ℝ, x i = (r : EReal))
    (hpos : ∀ (b : Fin 64) (n : Fin 1024), 0 < vR a b n) :
    outK a x W1 b1 W β = outR a x W1 b1 W β := by
  funext i
  obtain ⟨b, n, l, rfl⟩ : ∃ (b : Fin 64) (n : Fin 1024) (l : Fin 256), i = ix3 b n l :=
    ⟨i 0, i 1, i 2, eq_ix3 i⟩
  show head (hK a x b) W1 b1 W β n l = head (hR a x b) W1 b1 W β n l
  have h : hK a x b = hR a x b :=
    funext fun n => funext fun k => hK_eq_hR a x ha hx b (hpos b) n k
  rw [h]

end Cert.Gcn

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.GcnPayload.lean ====
/-
  The kernel body's arithmetic on one grid point's blocks, read entry by entry on the extended reals.

  The body forms, from the block `P0` of the adjacency array (1×N×N) and `P1` of the features (1×N×512):
  the row sums of `P0` kept as a column, plus one, plus ε; their reciprocal square roots `d` (a column); the features
  scaled row by row by `d`; the product of `P0` with those; that product scaled row by row by `d`, plus the features
  scaled by `d²`. Then two dense layers: times the transposed first weight matrix `P2`, plus the bias row `P3`,
  rectified; times the stacked transposed head weights `P4`. Changes of float format are the identity here, a lane sum
  is a finite sum, and a matrix product into a zero accumulator is the sum over the contracted coordinate of the
  products, so entry `(n, q)` of the result is the specification's `blockOut P0 P1 P2 P3 P4 n q`.
-/
import proofs.«179284_j4612794876702_2_alg».proof.Proof.Gen.KernelIdeal.Skeleton
import proofs.«179284_j4612794876702_2_alg».proof.Proof.GcnSpec
import proofs.«179284_j4612794876702_2_alg».proof.Proof.LibColumnLayout
import Idealize.ShloMosaic.PureOps.Ideal.Laws
import Idealize.ShloMosaic.Lib.Pipeline.Value
import Idealize.ShloMosaic.Lib.ValueIdx
import Idealize.ShloMosaic.Lib.ValueLayout

noncomputable section

namespace Cert.Gcn.Pay

open Cert.KernelIdeal Cert.KernelIdeal.Gen Idealize.ShloMosaic Idealize.ShloMosaic.ValueIdx
open scoped BigOperators

/-! ## A plain matrix product into a zero accumulator

Both dot records of the body contract the left operand's second axis with the right operand's first and have no
batch axis, so at `(n, q)` the operands are read at `(n, k)` and `(k, q)`. -/

/-- The N×N by N×512 record (the message-passing product and the heads' product). -/
abbrev dA : DotDims S1024x1024 S1024x512 S1024x512 := dot_S1024x1024_S1024x512_S1024x512_1_0_0_1_n_n
/-- The N×512 by 512×N record (the hidden layer's product). -/
abbrev dB' : DotDims S1024x512 S512x1024 S1024x1024 := dot_S1024x512_S512x1024_S1024x1024_1_0_0_1_n_n

theorem dA_lhs0 (i : S1024x512.Idx) (κ : dA.contr.Idx) : (dA.lhsIdx i κ 0).val = (i 0).val := by
  unfold DotDims.lhsIdx
  rw [dif_neg (show ¬(0 : Fin S1024x1024.rank) ∈ dA.lhsBatch by decide),
    dif_pos (show (0 : Fin S1024x1024.rank) ∈ dA.lhsNonContracting by decide)]
  rfl
theorem dA_lhs1 (i : S1024x512.Idx) (κ : dA.contr.Idx) : (dA.lhsIdx i κ 1).val = (κ ⟨0, by decide⟩).val :=
  dA.lhsIdx_val_of_single rfl i κ
theorem dA_rhs0 (i : S1024x512.Idx) (κ : dA.contr.Idx) : (dA.rhsIdx i κ 0).val = (κ ⟨0, by decide⟩).val :=
  dA.rhsIdx_val_of_single rfl i κ
theorem dA_rhs1 (i : S1024x512.Idx) (κ : dA.contr.Idx) : (dA.rhsIdx i κ 1).val = (i 1).val := by
  unfold DotDims.rhsIdx
  rw [dif_neg (show ¬(1 : Fin S1024x512.rank) ∈ dA.rhsBatch by decide),
    dif_pos (show (1 : Fin S1024x512.rank) ∈ dA.rhsNonContracting by decide)]
  rfl

/-- The N×N by N×512 product into zero, at `(n, q)`. -/
theorem matmulA_apply (L : FVec Ideal S1024x1024 .bf16) (R : FVec Ideal S1024x512 .bf16) (n : Fin 1024) (q : Fin 512) :
    matmul dA none L R (constant (F := Ideal) S1024x512 .f32 0x00000000#32) (ix2 n q)
      = ∑ k : Fin 1024, L (ix2 n k) * R (ix2 k q) := by
  simp only [matmul]
  rw [Ideal.matmul_constant_zero_apply, ← Equiv.sum_comp (contrEquiv1 dA 1024 rfl rfl).symm]
  refine Finset.sum_congr rfl fun k _ => ?_
  have hk := contrEquiv1_symm_val dA 1024 rfl rfl k
  have el : dA.lhsIdx (ix2 n q) ((contrEquiv1 dA 1024 rfl rfl).symm k) = ix2 n k := funext fun a => Fin.ext (by
    match a with
    | ⟨0, _⟩ => exact dA_lhs0 _ _
    | ⟨1, _⟩ => exact (dA_lhs1 _ _).trans hk)
  have er : dA.rhsIdx (ix2 n q) ((contrEquiv1 dA 1024 rfl rfl).symm k) = ix2 k q := funext fun a => Fin.ext (by
    match a with
    | ⟨0, _⟩ => exact (dA_rhs0 _ _).trans hk
    | ⟨1, _⟩ => exact dA_rhs1 _ _)
  rw [el, er]

theorem dB_lhs0 (i : S1024x1024.Idx) (κ : dB'.contr.Idx) : (dB'.lhsIdx i κ 0).val = (i 0).val := by
  unfold DotDims.lhsIdx
  rw [dif_neg (show ¬(0 : Fin S1024x512.rank) ∈ dB'.lhsBatch by decide),
    dif_pos (show (0 : Fin S1024x512.rank) ∈ dB'.lhsNonContracting by decide)]
  rfl
theorem dB_lhs1 (i : S1024x1024.Idx) (κ : dB'.contr.Idx) : (dB'.lhsIdx i κ 1).val = (κ ⟨0, by decide⟩).val :=
  dB'.lhsIdx_val_of_single rfl i κ
theorem dB_rhs0 (i : S1024x1024.Idx) (κ : dB'.contr.Idx) : (dB'.rhsIdx i κ 0).val = (κ ⟨0, by decide⟩).val :=
  dB'.rhsIdx_val_of_single rfl i κ
theorem dB_rhs1 (i : S1024x1024.Idx) (κ : dB'.contr.Idx) : (dB'.rhsIdx i κ 1).val = (i 1).val := by
  unfold DotDims.rhsIdx
  rw [dif_neg (show ¬(1 : Fin S512x1024.rank) ∈ dB'.rhsBatch by decide),
    dif_pos (show (1 : Fin S512x1024.rank) ∈ dB'.rhsNonContracting by decide)]
  rfl

/-- The N×512 by 512×N product into zero, at `(n, j)`. -/
theorem matmulB_apply (L : FVec Ideal S1024x512 .bf16) (R : FVec Ideal S512x1024 .bf16) (n : Fin 1024) (j : Fin 1024) :
    matmul dB' none L R (constant (F := Ideal) S1024x1024 .f32 0x00000000#32) (ix2 n j)
      = ∑ k : Fin 512, L (ix2 n k) * R (ix2 k j) := by
  simp only [matmul]
  rw [Ideal.matmul_constant_zero_apply, ← Equiv.sum_comp (contrEquiv1 dB' 512 rfl rfl).symm]
  refine Finset.sum_congr rfl fun k _ => ?_
  have hk := contrEquiv1_symm_val dB' 512 rfl rfl k
  have el : dB'.lhsIdx (ix2 n j) ((contrEquiv1 dB' 512 rfl rfl).symm k) = ix2 n k := funext fun a => Fin.ext (by
    match a with
    | ⟨0, _⟩ => exact dB_lhs0 _ _
    | ⟨1, _⟩ => exact (dB_lhs1 _ _).trans hk)
  have er : dB'.rhsIdx (ix2 n j) ((contrEquiv1 dB' 512 rfl rfl).symm k) = ix2 k j := funext fun a => Fin.ext (by
    match a with
    | ⟨0, _⟩ => exact (dB_rhs0 _ _).trans hk
    | ⟨1, _⟩ => exact dB_rhs1 _ _)
  rw [el, er]

/-! ## The degree column and the normaliser -/

/-- The block of the adjacency array as an N×N matrix. -/
def matA (P0 : Vec Ideal S1x1024x1024 .f32) : FVec Ideal S1024x1024 .f32 :=
  shapeCast S1024x1024 P0 shapeCasts_S1x1024x1024_S1024x1024

theorem matA_apply (P0 : Vec Ideal S1x1024x1024 .f32) (n m : Fin 1024) :
    matA P0 (ix2 n m) = P0 (ix3 (0 : Fin 1) n m) :=
  shapeCast_1ab_ab_apply P0 shapeCasts_S1x1024x1024_S1024x1024 n m

/-- The block of the features as an N×512 matrix. -/
def matX (P1 : Vec Ideal S1x1024x512 .f32) : FVec Ideal S1024x512 .f32 :=
  shapeCast S1024x512 P1 shapeCasts_S1x1024x512_S1024x512

theorem matX_apply (P1 : Vec Ideal S1x1024x512 .f32) (n : Fin 1024) (k : Fin 512) :
    matX P1 (ix2 n k) = P1 (ix3 (0 : Fin 1) n k) :=
  shapeCast_1ab_ab_apply P1 shapeCasts_S1x1024x512_S1024x512 n k

/-- A row sum of the matrix: the lane sum over the second axis. -/
theorem rowSum_apply (A : FVec Ideal S1024x1024 .f32) (hacc : (0x00000000#32 : BitVec 32) = 0x00000000#32) (n : Fin 1024) :
    multiReduction (F := Ideal) .add [1] S1024 A 0x00000000#32 reduces_S1024x1024_S1024 (.inl rfl) hacc (ix1 n)
      = ∑ m : Fin 1024, A (ix2 n m) := by
  refine (Ideal.multiReduction_add_single A 0x00000000#32 reduces_S1024x1024_S1024 (.inl rfl) hacc (ix1 n)).trans ?_
  refine Finset.sum_congr rfl fun m _ => ?_
  exact congrArg A (funext fun a => Fin.ext (by match a with | ⟨0, _⟩ => rfl | ⟨1, _⟩ => rfl))

/-- Degree plus stabiliser, as a column: the row sums kept as a column, plus one, plus ε. -/
def colV (P0 : Vec Ideal S1x1024x1024 .f32) : FVec Ideal S1024x1 .f32 :=
  addf (addf (shapeCast S1024x1 (multiReduction (F := Ideal) .add [1] S1024 (matA P0) 0x00000000#32 reduces_S1024x1024_S1024 (.inl rfl) rfl) shapeCasts_S1024_S1024x1)
    (broadcast S1024x1 (Scalar.ofBits (F := Ideal) .f32 0x3F800000#32)))
    (broadcast S1024x1 (Scalar.ofBits (F := Ideal) .f32 0x322BCC77#32))

theorem colV_apply (P0 : Vec Ideal S1x1024x1024 .f32) (n : Fin 1024) (u : Fin 1) :
    colV P0 (ix2 n u) = ((∑ m : Fin 1024, P0 (ix3 (0 : Fin 1) n m)) + oneK) + eps := by
  show (shapeCast S1024x1 (multiReduction (F := Ideal) .add [1] S1024 (matA P0) 0x00000000#32 reduces_S1024x1024_S1024 (.inl rfl) rfl) shapeCasts_S1024_S1024x1) (ix2 n u)
      + oneK + eps = _
  rw [ColumnLayout.shapeCast_a_a1_apply, rowSum_apply]
  simp only [matA_apply]

/-- The normaliser, as a column. -/
def colD (P0 : Vec Ideal S1x1024x1024 .f32) : FVec Ideal S1024x1 .f32 := rsqrt (colV P0)

theorem colD_apply (P0 : Vec Ideal S1x1024x1024 .f32) (n : Fin 1024) (u : Fin 1) :
    colD P0 (ix2 n u) = dB P0 n := by
  show Ideal.rsqrt (colV P0 (ix2 n u)) = _
  rw [colV_apply]
  rfl

/-! ## Pointwise operations read at an index

At the extended reals a pointwise sum, product and maximum of arrays read at an index are the sum, product and maximum
of the entries, and a change of float format leaves an entry as it is. -/

theorem addf_at {s : Shape} (x y : FVec Ideal s .f32) (i : s.Idx) : addf x y i = x i + y i := rfl
theorem mulf_at {s : Shape} (x y : FVec Ideal s .f32) (i : s.Idx) : mulf x y i = x i * y i := rfl
theorem maxf_at {s : Shape} (x y : FVec Ideal s .f32) (i : s.Idx) : maximumf x y i = max (x i) (y i) := rfl
theorem truncf_at {s : Shape} (x : FVec Ideal s .f32) (i : s.Idx) : truncf .bf16 x bitsLt_bf16_f32 i = x i := rfl

/-! ## Message passing on the block -/

/-- The normalised message passing as the body forms it: the product of the adjacency block with the features scaled
    row by row by the normaliser, scaled again row by row, plus the features scaled by the normaliser's square. -/
def matH (P0 : Vec Ideal S1x1024x1024 .f32) (P1 : Vec Ideal S1x1024x512 .f32) : FVec Ideal S1024x512 .f32 :=
  addf
    (mulf (broadcastTo S1024x512 (colD P0) broadcasts_S1024x1_S1024x512)
      (matmul dA none (truncf .bf16 (matA P0) bitsLt_bf16_f32)
        (truncf .bf16 (mulf (broadcastTo S1024x512 (colD P0) broadcasts_S1024x1_S1024x512) (matX P1)) bitsLt_bf16_f32)
        (constant (F := Ideal) S1024x512 .f32 0x00000000#32)))
    (mulf (broadcastTo S1024x512 (mulf (colD P0) (colD P0)) broadcasts_S1024x1_S1024x512) (matX P1))

theorem matH_apply (P0 : Vec Ideal S1x1024x1024 .f32) (P1 : Vec Ideal S1x1024x512 .f32) (n : Fin 1024) (k : Fin 512) :
    matH P0 P1 (ix2 n k) = hB P0 P1 n k := by
  unfold matH hB
  rw [addf_at, mulf_at, mulf_at, matmulA_apply, ColumnLayout.broadcastTo_a1_ab_apply,
    ColumnLayout.broadcastTo_a1_ab_apply, mulf_at, colD_apply, matX_apply]
  refine congrArg (fun s => dB P0 n * s + dB P0 n * dB P0 n * P1 (ix3 (0 : Fin 1) n k)) ?_
  refine Finset.sum_congr rfl fun m _ => ?_
  rw [truncf_at, truncf_at, mulf_at, ColumnLayout.broadcastTo_a1_ab_apply, colD_apply, matA_apply, matX_apply]

/-! ## The hidden layer -/

/-- The first dense layer with its rectifier: the message passing times the transposed weights, plus the bias row
    repeated down the rows, and the maximum with zero. -/
def matG (P0 : Vec Ideal S1x1024x1024 .f32) (P1 : Vec Ideal S1x1024x512 .f32) (P2 : FVec Ideal S512x1024 .bf16)
    (P3 : Vec Ideal S1x1024 .f32) : FVec Ideal S1024x1024 .f32 :=
  maximumf
    (addf
      (matmul dB' none (truncf .bf16 (matH P0 P1) bitsLt_bf16_f32) (shapeCast S512x1024 P2 shapeCasts_S512x1024_S512x1024)
        (constant (F := Ideal) S1024x1024 .f32 0x00000000#32))
      (broadcastTo S1024x1024 (shapeCast S1x1024 P3 shapeCasts_S1x1024_S1x1024) broadcasts_S1x1024_S1024x1024))
    (broadcast S1024x1024 (Scalar.ofBits (F := Ideal) .f32 0x00000000#32))

theorem matG_apply (P0 : Vec Ideal S1x1024x1024 .f32) (P1 : Vec Ideal S1x1024x512 .f32) (P2 : FVec Ideal S512x1024 .bf16)
    (P3 : Vec Ideal S1x1024 .f32) (n j : Fin 1024) :
    matG P0 P1 P2 P3 (ix2 n j)
      = max ((∑ k : Fin 512, hB P0 P1 n k * P2 (ix2 k j)) + P3 (ix2 (0 : Fin 1) j)) 0 := by
  unfold matG
  rw [maxf_at, addf_at, matmulB_apply, broadcastTo_1b_ab_apply, shapeCast_self, shapeCast_self]
  show max ((∑ k : Fin 512, truncf .bf16 (matH P0 P1) bitsLt_bf16_f32 (ix2 n k) * P2 (ix2 k j)) + P3 (ix2 (0 : Fin 1) j))
      (Ideal.ofBits .f32 0x00000000#32) = _
  rw [Ideal.ofBits_zero_f32]
  refine congrArg (fun s => max (s + P3 (ix2 (0 : Fin 1) j)) 0) ?_
  refine Finset.sum_congr rfl fun k _ => ?_
  rw [truncf_at, matH_apply]

/-! ## The stacked heads, before their bias -/

/-- The body's last product is the hidden layer times the stacked transposed head weights. -/
theorem pay4_eq (P0 : Vec Ideal S1x1024x1024 .f32) (P1 : Vec Ideal S1x1024x512 .f32) (P2 : FVec Ideal S512x1024 .bf16)
    (P3 : Vec Ideal S1x1024 .f32) (P4 : FVec Ideal S1024x512 .bf16) :
    k0_pay4 (F := Ideal) P0 P1 P2 P3 P4
      = matmul dA none (truncf .bf16 (matG P0 P1 P2 P3) bitsLt_bf16_f32)
          (shapeCast S1024x512 P4 shapeCasts_S1024x512_S1024x512) (constant (F := Ideal) S1024x512 .f32 0x00000000#32) := rfl

/-- Entry `(n, q)` of the body's last product is the specification's. -/
theorem pay4_apply (P0 : Vec Ideal S1x1024x1024 .f32) (P1 : Vec Ideal S1x1024x512 .f32) (P2 : FVec Ideal S512x1024 .bf16)
    (P3 : Vec Ideal S1x1024 .f32) (P4 : FVec Ideal S1024x512 .bf16) (n : Fin 1024) (q : Fin 512) :
    k0_pay4 (F := Ideal) P0 P1 P2 P3 P4 (ix2 n q) = blockOut P0 P1 P2 P3 P4 n q := by
  rw [pay4_eq, matmulA_apply, shapeCast_self]
  unfold blockOut
  refine Finset.sum_congr rfl fun j _ => ?_
  rw [truncf_at, matG_apply]

end Cert.Gcn.Pay

end
-- ==== Proof.GcnEye.lean ====
/-
  The identity matrix's entry as the scalar term both programs print: two 32-bit iotas are compared for equality and the
  resulting bit is converted to a float. Row and column numbers are below 1024, far below 2^32, so the 32-bit words are
  equal exactly when the numbers are; the bit read as an unsigned integer is then 1 on the diagonal and 0 off it.
-/
import proofs.«179284_j4612794876702_2_alg».proof.Proof.GcnSpec

noncomputable section

namespace Cert.Gcn

open Idealize.ShloMosaic Idealize.ShloMosaic.ValueIdx

/-- Two numbers below 1024 give the same 32-bit word exactly when they are equal. -/
theorem ofNat32_eq_iff (n m : Fin 1024) : BitVec.ofNat 32 n.val = BitVec.ofNat 32 m.val ↔ n = m := by
  constructor
  · intro h
    have e := congrArg BitVec.toNat h
    simp only [BitVec.toNat_ofNat] at e
    have hn := n.isLt
    have hm := m.isLt
    rw [Nat.mod_eq_of_lt (by omega), Nat.mod_eq_of_lt (by omega)] at e
    exact Fin.ext e
  · intro h
    rw [h]

/-- The printed term for the identity's entry (n, m) is 1 on the diagonal and 0 off it. -/
theorem eye_term (n m : Fin 1024) :
    FloatOps.uitofp (F := Ideal) .f32
        (IntOp.cmpi .eq (IntOp.addi (BitVec.ofNat 32 n.val) 0#32) (BitVec.ofNat 32 m.val)) = eye n m := by
  show (((IntOp.cmpi .eq (IntOp.addi (BitVec.ofNat 32 n.val) 0#32) (BitVec.ofNat 32 m.val)).toNat : ℝ) : EReal)
      = eye n m
  unfold IntOp.cmpi IntOp.addi eye
  rw [BitVec.add_zero]
  by_cases h : n = m
  · subst h
    simp
  · have hne : BitVec.ofNat 32 n.val ≠ BitVec.ofNat 32 m.val := fun e => h ((ofNat32_eq_iff n m).mp e)
    simp [h, hne]

end Cert.Gcn

end
-- ==== Proof.GcnRef.lean ====
/-
  The reference program's two result arrays, read operation by operation, are the encoder of GcnSpec in the
  reference's arrangement (outR): the identity is added to the adjacency, its row sums plus the stabiliser are raised to
  the power -1/2, the sum a + I is scaled entrywise by the row's and the column's normaliser and contracted with x, then the
  hidden layer with its rectifier and one linear head. Each stage is stated at explicit coordinates; an index built by
  a layout operation is identified with the index of its coordinates, coordinate by coordinate.
-/
import proofs.«179284_j4612794876702_2_alg».proof.Proof.Gen.ReferenceIdeal.Read
import proofs.«179284_j4612794876702_2_alg».proof.Proof.GcnSpec
import proofs.«179284_j4612794876702_2_alg».proof.Proof.GcnEye

noncomputable section

namespace Cert.Gcn.Ref

open Cert.ReferenceIdeal Cert.ReferenceIdeal.Gen Cert.ReferenceIdeal.Read
open Idealize.ShloMosaic Idealize.ShloMosaic.ValueIdx
open scoped BigOperators

/-! ## The identity matrix -/

/-- The converted comparison of the two iotas is the identity's entry. -/
theorem v5_ref (n m : Fin 1024) : val_main_v5 (F := Ideal) (ix2 n m) = eye n m := by
  rw [val_main_v5_apply, val_main_v4_apply, val_main_v3_apply, val_main_v0_apply, val_main_v1_apply,
    val_main_v2_apply, val_main_c_apply]
  exact eye_term n m

/-- Broadcast over the batch axis, the identity's entry does not depend on the batch element. -/
theorem v7_ref (b : Fin 64) (n m : Fin 1024) : val_main_v7 (F := Ideal) (ix3 b n m) = eye n m := by
  rw [val_main_v7_apply, val_main_v6_apply]
  have e : idx_main_v6 (idx_main_v7 (ix3 b n m)) = ix2 n m :=
    funext fun a => Fin.ext (by match a with | ⟨0, _⟩ => rfl | ⟨1, _⟩ => rfl)
  rw [e]
  exact v5_ref n m

/-- The adjacency plus the identity. -/
theorem v8_ref (x1 : (⟨S64x1024x1024, .f32⟩ : BufTy).Contents (Elt Ideal)) (b : Fin 64) (n m : Fin 1024) :
    val_main_v8 (F := Ideal) x1 (ix3 b n m) = x1 (ix3 b n m) + eye n m := by
  rw [val_main_v8_apply, Ideal.addf_def, v7_ref]

/-! ## The degree and the normaliser -/

/-- The row sum of a + I, plus the stabiliser. -/
theorem v11_ref (x1 : (⟨S64x1024x1024, .f32⟩ : BufTy).Contents (Elt Ideal)) (b : Fin 64) (n : Fin 1024) :
    val_main_v11 (F := Ideal) x1 (ix2 b n) = vR x1 b n := by
  rw [val_main_v11_apply, Ideal.addf_def, val_main_v9_apply, val_main_cst_apply, val_main_v10_apply,
    val_main_cst_0_apply, Ideal.ofBits_def, Ideal.ofBits_def, Ideal.ofBits_zero_f32, zero_add]
  unfold vR
  refine congrArg (· + eps) (Finset.sum_congr rfl fun m _ => ?_)
  have e : idx_main_v9 (ix2 b n) m = ix3 b n m :=
    funext fun a => Fin.ext (by match a with | ⟨0, _⟩ => rfl | ⟨1, _⟩ => rfl | ⟨2, _⟩ => rfl)
  rw [e, v8_ref]

/-- The normaliser: the degree plus the stabiliser, to the power -1/2. -/
theorem v13_ref (x1 : (⟨S64x1024x1024, .f32⟩ : BufTy).Contents (Elt Ideal)) (b : Fin 64) (n : Fin 1024) :
    val_main_v13 (F := Ideal) x1 (ix2 b n) = dR x1 b n := by
  rw [val_main_v13_apply, Ideal.hostPowf_def, v11_ref, val_main_v12_apply, val_main_cst_1_apply, Ideal.ofBits_def]
  rfl

/-- The normaliser broadcast along the columns: entry (b, n, m) is the normaliser of row n. -/
theorem v15_ref (x1 : (⟨S64x1024x1024, .f32⟩ : BufTy).Contents (Elt Ideal)) (b : Fin 64) (n m : Fin 1024) :
    val_main_v15 (F := Ideal) x1 (ix3 b n m) = dR x1 b n := by
  rw [val_main_v15_apply, val_main_v14_apply]
  have e : idx_main_v14 (idx_main_v15 (ix3 b n m)) = ix2 b n :=
    funext fun a => Fin.ext (by match a with | ⟨0, _⟩ => rfl | ⟨1, _⟩ => rfl)
  rw [e, v13_ref]

/-- The normaliser broadcast along the rows: entry (b, n, m) is the normaliser of row m. -/
theorem v18_ref (x1 : (⟨S64x1024x1024, .f32⟩ : BufTy).Contents (Elt Ideal)) (b : Fin 64) (n m : Fin 1024) :
    val_main_v18 (F := Ideal) x1 (ix3 b n m) = dR x1 b m := by
  rw [val_main_v18_apply, val_main_v17_apply]
  have e : idx_main_v17 (idx_main_v18 (ix3 b n m)) = ix2 b m :=
    funext fun a => Fin.ext (by match a with | ⟨0, _⟩ => rfl | ⟨1, _⟩ => rfl)
  rw [e, v13_ref]

/-! ## Message passing -/

/-- The normalised adjacency, entry by entry. -/
theorem v19_ref (x1 : (⟨S64x1024x1024, .f32⟩ : BufTy).Contents (Elt Ideal)) (b : Fin 64) (n m : Fin 1024) :
    val_main_v19 (F := Ideal) x1 (ix3 b n m)
      = ((x1 (ix3 b n m) + eye n m) * dR x1 b n) * dR x1 b m := by
  rw [val_main_v19_apply, Ideal.mulf_def, val_main_v16_apply, Ideal.mulf_def, v8_ref, v15_ref, v18_ref]

/-- The normalised adjacency contracted with x. -/
theorem v20_ref (x0 : (⟨S64x1024x512, .f32⟩ : BufTy).Contents (Elt Ideal))
    (x1 : (⟨S64x1024x1024, .f32⟩ : BufTy).Contents (Elt Ideal)) (b : Fin 64) (n : Fin 1024) (k : Fin 512) :
    val_main_v20 (F := Ideal) x0 x1 (ix3 b n k) = hR x1 x0 b n k := by
  rw [val_main_v20_apply]
  unfold hR
  refine Finset.sum_congr rfl fun m _ => ?_
  have el : lidx_main_v20 (ix3 b n k) m = ix3 b n m :=
    funext fun a => Fin.ext (by match a with | ⟨0, _⟩ => rfl | ⟨1, _⟩ => rfl | ⟨2, _⟩ => rfl)
  have er : ridx_main_v20 (ix3 b n k) m = ix3 b m k :=
    funext fun a => Fin.ext (by match a with | ⟨0, _⟩ => rfl | ⟨1, _⟩ => rfl | ⟨2, _⟩ => rfl)
  rw [el, er, v19_ref]

/-! ## The hidden layer -/

/-- The hidden layer with its rectifier. -/
theorem v25_ref (x0 : (⟨S64x1024x512, .f32⟩ : BufTy).Contents (Elt Ideal))
    (x1 : (⟨S64x1024x1024, .f32⟩ : BufTy).Contents (Elt Ideal))
    (x2 : (⟨S1024x512, .f32⟩ : BufTy).Contents (Elt Ideal)) (x3 : (⟨S1024, .f32⟩ : BufTy).Contents (Elt Ideal))
    (b : Fin 64) (n j : Fin 1024) :
    val_main_v25 (F := Ideal) x0 x1 x2 x3 (ix3 b n j)
      = max ((∑ k : Fin 512, hR x1 x0 b n k * x2 (ix2 j k)) + x3 (ix1 j)) 0 := by
  rw [val_main_v25_apply, Ideal.maximumf_def, val_main_v24_apply, Ideal.addf_def, val_main_v21_apply,
    val_main_v23_apply, val_main_v22_apply, val_main_call0_v0_apply, val_main_call0_cst_apply, Ideal.ofBits_def,
    Ideal.ofBits_zero_f32]
  have es : (∑ k : Fin 512, val_main_v20 (F := Ideal) x0 x1 (lidx_main_v21 (ix3 b n j) k)
        * x2 (ridx_main_v21 (ix3 b n j) k)) = ∑ k : Fin 512, hR x1 x0 b n k * x2 (ix2 j k) :=
    Finset.sum_congr rfl fun k _ => by
      have el : lidx_main_v21 (ix3 b n j) k = ix3 b n k :=
        funext fun a => Fin.ext (by match a with | ⟨0, _⟩ => rfl | ⟨1, _⟩ => rfl | ⟨2, _⟩ => rfl)
      have er : ridx_main_v21 (ix3 b n j) k = ix2 j k :=
        funext fun a => Fin.ext (by match a with | ⟨0, _⟩ => rfl | ⟨1, _⟩ => rfl)
      rw [el, er, v20_ref]
  have eb : idx_main_v22 (idx_main_v23 (ix3 b n j)) = ix1 j :=
    funext fun a => Fin.ext (by match a with | ⟨0, _⟩ => rfl)
  rw [es, eb]

/-! ## The two heads -/

/-- The first result array is the encoder with the first head's weights and bias. -/
theorem ref_mu (x0 : (⟨S64x1024x512, .f32⟩ : BufTy).Contents (Elt Ideal))
    (x1 : (⟨S64x1024x1024, .f32⟩ : BufTy).Contents (Elt Ideal))
    (x2 : (⟨S1024x512, .f32⟩ : BufTy).Contents (Elt Ideal)) (x3 : (⟨S1024, .f32⟩ : BufTy).Contents (Elt Ideal))
    (x4 : (⟨S256x1024, .f32⟩ : BufTy).Contents (Elt Ideal)) (x5 : (⟨S256, .f32⟩ : BufTy).Contents (Elt Ideal)) :
    val_main_v29 (F := Ideal) x0 x1 x2 x3 x4 x5 = Cert.Gcn.outR x1 x0 x2 x3 x4 x5 := by
  funext i
  obtain ⟨b, n, l, rfl⟩ : ∃ b n l, i = ix3 b n l := ⟨i 0, i 1, i 2, eq_ix3 i⟩
  rw [val_main_v29_apply, Ideal.addf_def, val_main_v26_apply, val_main_v28_apply, val_main_v27_apply]
  show _ = head (hR x1 x0 b) x2 x3 x4 x5 n l
  unfold head
  have es : (∑ j : Fin 1024, val_main_v25 (F := Ideal) x0 x1 x2 x3 (lidx_main_v26 (ix3 b n l) j)
        * x4 (ridx_main_v26 (ix3 b n l) j))
      = ∑ j : Fin 1024, max ((∑ k : Fin 512, hR x1 x0 b n k * x2 (ix2 j k)) + x3 (ix1 j)) 0 * x4 (ix2 l j) :=
    Finset.sum_congr rfl fun j _ => by
      have el : lidx_main_v26 (ix3 b n l) j = ix3 b n j :=
        funext fun a => Fin.ext (by match a with | ⟨0, _⟩ => rfl | ⟨1, _⟩ => rfl | ⟨2, _⟩ => rfl)
      have er : ridx_main_v26 (ix3 b n l) j = ix2 l j :=
        funext fun a => Fin.ext (by match a with | ⟨0, _⟩ => rfl | ⟨1, _⟩ => rfl)
      rw [el, er, v25_ref]
  have eb : idx_main_v27 (idx_main_v28 (ix3 b n l)) = ix1 l :=
    funext fun a => Fin.ext (by match a with | ⟨0, _⟩ => rfl)
  rw [es, eb]

/-- The second result array is the encoder with the second head's weights and bias. -/
theorem ref_lv (x0 : (⟨S64x1024x512, .f32⟩ : BufTy).Contents (Elt Ideal))
    (x1 : (⟨S64x1024x1024, .f32⟩ : BufTy).Contents (Elt Ideal))
    (x2 : (⟨S1024x512, .f32⟩ : BufTy).Contents (Elt Ideal)) (x3 : (⟨S1024, .f32⟩ : BufTy).Contents (Elt Ideal))
    (x6 : (⟨S256x1024, .f32⟩ : BufTy).Contents (Elt Ideal)) (x7 : (⟨S256, .f32⟩ : BufTy).Contents (Elt Ideal)) :
    val_main_v33 (F := Ideal) x0 x1 x2 x3 x6 x7 = Cert.Gcn.outR x1 x0 x2 x3 x6 x7 := by
  funext i
  obtain ⟨b, n, l, rfl⟩ : ∃ b n l, i = ix3 b n l := ⟨i 0, i 1, i 2, eq_ix3 i⟩
  rw [val_main_v33_apply, Ideal.addf_def, val_main_v30_apply, val_main_v32_apply, val_main_v31_apply]
  show _ = head (hR x1 x0 b) x2 x3 x6 x7 n l
  unfold head
  have es : (∑ j : Fin 1024, val_main_v25 (F := Ideal) x0 x1 x2 x3 (lidx_main_v30 (ix3 b n l) j)
        * x6 (ridx_main_v30 (ix3 b n l) j))
      = ∑ j : Fin 1024, max ((∑ k : Fin 512, hR x1 x0 b n k * x2 (ix2 j k)) + x3 (ix1 j)) 0 * x6 (ix2 l j) :=
    Finset.sum_congr rfl fun j _ => by
      have el : lidx_main_v30 (ix3 b n l) j = ix3 b n j :=
        funext fun a => Fin.ext (by match a with | ⟨0, _⟩ => rfl | ⟨1, _⟩ => rfl | ⟨2, _⟩ => rfl)
      have er : ridx_main_v30 (ix3 b n l) j = ix2 l j :=
        funext fun a => Fin.ext (by match a with | ⟨0, _⟩ => rfl | ⟨1, _⟩ => rfl)
      rw [el, er, v25_ref]
  have eb : idx_main_v31 (idx_main_v32 (ix3 b n l)) = ix1 l :=
    funext fun a => Fin.ext (by match a with | ⟨0, _⟩ => rfl)
  rw [es, eb]

end Cert.Gcn.Ref

end
-- ==== Proof.GcnPre.lean ====
/-
  The precondition, decoded. It is printed as one function of the eight argument arrays returning a single bit: eight tests
  "every entry has absolute value below +∞", one per array, and-ed together from left to right, and-ed last with the domain
  test "every row sum of a + I, plus ε, is above 0". That bit being 1 gives each conjunct. On the extended reals the
  absolute value is max v (-v), which is +∞ at both infinities, so the first two tests say that every entry of x and of a
  is a real number. The domain test compares, at each (b, n), the constant 0 with 0 + Σ_m (a (b, n, m) + I (n, m)) + ε,
  where I is built from two iotas compared for equality and broadcast over the batch: that sum is vR a b n.
-/
import proofs.«179284_j4612794876702_2_alg».proof.Pre_finite_inputs
import proofs.«179284_j4612794876702_2_alg».proof.Proof.Gen.Pre_finite_inputs
import proofs.«179284_j4612794876702_2_alg».proof.Proof.GcnSpec
import proofs.«179284_j4612794876702_2_alg».proof.Proof.GcnEye
import Idealize.ShloMosaic.Lib.ReduceAll
import Idealize.ShloMosaic.Lib.IdealHost
import Idealize.ShloMosaic.Lib.Pipeline.Value
import Idealize.ShloMosaic.PureOps.Ideal.Laws

noncomputable section

namespace Cert.Gcn.Pre

open Idealize.ShloMosaic Idealize.ShloMosaic.ValueIdx Cert.Pre_finite_inputs Cert.Pre_finite_inputs.Facts
open scoped BigOperators

/-- The shape of rank 0 has one index. -/
instance : Subsingleton S_.Idx := ⟨fun a b => funext fun d => d.elim0⟩

/-- A comparison bit is 1 exactly when the comparison holds. -/
theorem ofBool_eq_one (b : Bool) : BitVec.ofBool b = 1#1 ↔ b = true := by cases b <;> decide

/-- The word `0x7F800000` is +∞. -/
theorem inf_word : Ideal.ofBits .f32 0x7F800000#32 = (⊤ : EReal) := by
  simp [Ideal.ofBits, Ideal.ieee]

/-- An extended real whose absolute value `max v (-v)` is below +∞ is a real number: at ±∞ the maximum is +∞. -/
theorem real_of_abs_lt_top (v : EReal) (h : max v (-v) < (⊤ : EReal)) : ∃ r : ℝ, v = (r : EReal) := by
  induction v using EReal.rec with
  | bot => simp at h
  | top => simp at h
  | coe r => exact ⟨r, rfl⟩

/-- `jnp.all (|v| < +inf)` read back: every entry of `v` is a real number. -/
theorem real_of_all {s : Shape} {axes : List (Fin s.rank)} (v : FVec Ideal s .f32) (hb : S_.BroadcastsInDim s ![])
    (hr : s.ReducesTo axes S_) (hu : 0 < S_.numel)
    (h : Host.reduce IntOp.andi (cmpf .olt (Host.absf v) (broadcastInDim s ![] hb (constant S_ .f32 0x7F800000#32)))
        (constantI S_ 1 1#1) hr hu ix0 = 1#1) (i : s.Idx) : ∃ r : ℝ, v i = (r : EReal) := by
  have h1 := Host.reduce_andi_all _ _ hr hu ix0 h i
  have h2 : BitVec.ofBool (decide (max (v i) (-(v i)) < Ideal.ofBits .f32 0x7F800000#32)) = 1#1 := h1
  rw [inf_word] at h2
  exact real_of_abs_lt_top (v i) (of_decide_eq_true ((ofBool_eq_one _).1 h2))

/-- The identity matrix as the precondition builds it (two iotas compared, converted, broadcast over the batch), read at
    an index: its entry `(b, n, m)` is the identity's entry `(n, m)`. -/
theorem eye_read [Facts] (b : Fin 64) (n m : Fin 1024) :
    broadcastInDim S64x1024x1024 ![0, 1, 2] bcast_S1x1024x1024_S64x1024x1024_0_1_2
      (broadcastInDim S1x1024x1024 ![1, 2] bcast_S1024x1024_S1x1024x1024_1_2
        (uitofp (F := Ideal) .f32
          (cmpi .eq
            (addi (iotaInDim S1024x1024 32 0) (broadcastInDim S1024x1024 ![] bcast_S_S1024x1024 (constantI S_ 32 0#32)))
            (iotaInDim S1024x1024 32 1))))
      (ix3 b n m) = Cert.Gcn.eye n m := by
  refine (broadcastInDim_apply _ bcast_S1x1024x1024_S64x1024x1024_0_1_2 _ (ix3 b n m) (ix3 (0 : Fin 1) n m)
    (fun a => match a with
      | ⟨0, _⟩ => by show 0 = if (1 : Nat) = 1 then 0 else b.val; rw [if_pos rfl]
      | ⟨1, _⟩ => by show n.val = if (1024 : Nat) = 1 then 0 else n.val; rw [if_neg (by decide)]
      | ⟨2, _⟩ => by show m.val = if (1024 : Nat) = 1 then 0 else m.val; rw [if_neg (by decide)])).trans ?_
  refine (broadcastInDim_apply _ bcast_S1024x1024_S1x1024x1024_1_2 _ (ix3 (0 : Fin 1) n m) (ix2 n m)
    (fun a => match a with
      | ⟨0, _⟩ => by show n.val = if (1024 : Nat) = 1 then 0 else n.val; rw [if_neg (by decide)]
      | ⟨1, _⟩ => by show m.val = if (1024 : Nat) = 1 then 0 else m.val; rw [if_neg (by decide)])).trans ?_
  exact Cert.Gcn.eye_term n m

/-- A row sum from 0 over the last axis plus a broadcast scalar, read at `(b, n)`. -/
theorem deg_read (y : FVec Ideal S64x1024x1024 .f32) (hr : S64x1024x1024.ReducesTo [2] S64x1024) (hu : 0 < S_.numel)
    (hb : S_.BroadcastsInDim S64x1024 ![]) (w : BitVec 32) (b : Fin 64) (n : Fin 1024) :
    addf (Host.reduceAdd y (constant S_ .f32 0x00000000#32) hr hu)
        (broadcastInDim S64x1024 ![] hb (constant S_ .f32 w)) (ix2 b n)
      = (∑ m : Fin 1024, y (ix3 b n m)) + Ideal.ofBits .f32 w := by
  show Ideal.hostReduceAdd hr y (Ideal.ofBits .f32 0x00000000#32) (ix2 b n) + Ideal.ofBits .f32 w = _
  rw [Ideal.hostReduceAdd_single hr (by decide), Ideal.ofBits_zero_f32, zero_add]
  refine congrArg (· + Ideal.ofBits .f32 w) (Finset.sum_congr rfl fun k _ => ?_)
  exact congrArg y (funext fun a => Fin.ext (by match a with | ⟨0, _⟩ => rfl | ⟨1, _⟩ => rfl | ⟨2, _⟩ => rfl))

/-- The last stretch of the chain: its bit is the and of the earlier tests' bit with "every entry of v50 is above the
    matching entry of v51". -/
theorem part3 [Facts] (v38 : IVec S_ 1) (v50 v51 : FVec Ideal S64x1024 .f32)
    (h : fn_part3 (F := Ideal) v38 v50 v51 ix0 = 1#1) : v38 ix0 = 1#1 ∧ ∀ j, v51 j < v50 j := by
  dsimp only [fn_part3] at h
  obtain ⟨h1, h2⟩ := IntOp.andi_eq_one.1 h
  refine ⟨h1, fun j => ?_⟩
  have h3 := Host.reduce_andi_all _ _ _ _ ix0 h2 j
  have h4 : BitVec.ofBool (decide (v51 j < v50 j)) = 1#1 := h3
  exact of_decide_eq_true ((ofBool_eq_one _).1 h4)

/-- The middle stretch: the earlier tests' bit and-ed with the last array's finiteness test, then the domain test, whose
    two compared arrays are the constant 0 and the degree plus ε. -/
theorem part2 [Facts] (a : FVec Ideal S64x1024x1024 .f32) (blv : FVec Ideal S256 .f32) (v33 : IVec S_ 1)
    (h : fn_part2 (F := Ideal) a blv v33 ix0 = 1#1) :
    v33 ix0 = 1#1 ∧ ∀ (b : Fin 64) (n : Fin 1024), 0 < Cert.Gcn.vR a b n := by
  dsimp only [fn_part2] at h
  obtain ⟨h1, h2⟩ := part3 _ _ _ h
  obtain ⟨h3, -⟩ := IntOp.andi_eq_one.1 h1
  refine ⟨h3, fun b n => ?_⟩
  refine lt_of_lt_of_eq (lt_of_eq_of_lt ?_ (h2 (ix2 b n))) ?_
  · exact Ideal.ofBits_zero_f32.symm
  · refine (deg_read _ _ _ _ _ b n).trans ?_
    unfold Cert.Gcn.vR
    refine congrArg (· + Cert.Gcn.eps) (Finset.sum_congr rfl fun m _ => ?_)
    exact congrArg (a (ix3 b n m) + ·) (eye_read b n m)

/-- The second stretch: four more finiteness tests are and-ed on before the chain goes on; only the first bit is kept. -/
theorem part1 [Facts] (a : FVec Ideal S64x1024x1024 .f32) (Wmu : FVec Ideal S256x1024 .f32) (bmu : FVec Ideal S256 .f32)
    (Wlv : FVec Ideal S256x1024 .f32) (blv : FVec Ideal S256 .f32) (v13 : IVec S_ 1) (v16 : IVec S1024 1)
    (h : fn_part1 (F := Ideal) a Wmu bmu Wlv blv v13 v16 ix0 = 1#1) :
    v13 ix0 = 1#1 ∧ ∀ (b : Fin 64) (n : Fin 1024), 0 < Cert.Gcn.vR a b n := by
  dsimp only [fn_part1] at h
  obtain ⟨h1, h2⟩ := part2 _ _ _ h
  obtain ⟨h1, -⟩ := IntOp.andi_eq_one.1 h1
  obtain ⟨h1, -⟩ := IntOp.andi_eq_one.1 h1
  obtain ⟨h1, -⟩ := IntOp.andi_eq_one.1 h1
  obtain ⟨h1, -⟩ := IntOp.andi_eq_one.1 h1
  exact ⟨h1, h2⟩

/-- The precondition's bit being 1 gives: every entry of x is a real number, every entry of a is a real number, and every
    degree plus ε is positive. -/
theorem pre_facts [Facts] (x : FVec Ideal S64x1024x512 .f32) (a : FVec Ideal S64x1024x1024 .f32)
    (W1 : FVec Ideal S1024x512 .f32) (b1 : FVec Ideal S1024 .f32) (Wmu : FVec Ideal S256x1024 .f32)
    (bmu : FVec Ideal S256 .f32) (Wlv : FVec Ideal S256x1024 .f32) (blv : FVec Ideal S256 .f32)
    (h : Cert.Pre_finite_inputs.fn (F := Ideal) x a W1 b1 Wmu bmu Wlv blv = (fun _ => 1#1)) :
    (∀ i, ∃ r : ℝ, x i = (r : EReal)) ∧ (∀ i, ∃ r : ℝ, a i = (r : EReal))
      ∧ (∀ (b : Fin 64) (n : Fin 1024), 0 < Cert.Gcn.vR a b n) := by
  have h0 := congrFun h ix0
  dsimp only [fn] at h0
  obtain ⟨h1, h2⟩ := part1 _ _ _ _ _ _ _ h0
  obtain ⟨h1, -⟩ := IntOp.andi_eq_one.1 h1
  obtain ⟨h3, h7⟩ := IntOp.andi_eq_one.1 h1
  exact ⟨real_of_all _ _ _ _ h3, real_of_all _ _ _ _ h7, h2⟩

end Cert.Gcn.Pre

end
-- ==== Proof.GcnWindows.lean ====
/-
  The arrays the host writes before the pallas_call, read at coordinates.

  Before the region the host transposes the hidden layer's weights `W1` (1024×512) to 512×1024, stacks the two heads'
  weights (256×1024 each) along their rows and transposes the stack to 1024×512, stacks the two heads' biases to a row of
  512, and lays `b1` out as a row of 1024. On the extended reals the format changes are the identity, so each of these
  arrays at an index is an entry of an argument array: the transposes swap the two coordinates, a stacked row below 256 is
  the first head's, a stacked row `l + 256` is row `l` of the second head's.
-/
import proofs.«179284_j4612794876702_2_alg».proof.Proof.Gen.KernelIdeal.Value
import proofs.«179284_j4612794876702_2_alg».proof.Proof.GcnSpec
import Idealize.ShloMosaic.Lib.ValueIdx
import Idealize.ShloMosaic.Lib.ValueLayout

noncomputable section

namespace Cert.Gcn.Ker

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The arguments as launched, as functions of their indices -/

/-- `W1`, the hidden layer's weights. -/
abbrev argW1 (c : Dev nD) : S1024x512.Idx → EReal := m ((c : Thread nD τ).loc main_arg2)
/-- `b1`, the hidden layer's bias. -/
abbrev argB1 (c : Dev nD) : S1024.Idx → EReal := m ((c : Thread nD τ).loc main_arg3)
/-- The first head's weights. -/
abbrev argWmu (c : Dev nD) : S256x1024.Idx → EReal := m ((c : Thread nD τ).loc main_arg4)
/-- The first head's bias. -/
abbrev argBmu (c : Dev nD) : S256.Idx → EReal := m ((c : Thread nD τ).loc main_arg5)
/-- The second head's weights. -/
abbrev argWlv (c : Dev nD) : S256x1024.Idx → EReal := m ((c : Thread nD τ).loc main_arg6)
/-- The second head's bias. -/
abbrev argBlv (c : Dev nD) : S256.Idx → EReal := m ((c : Thread nD τ).loc main_arg7)

/-! ## Each host-written array as the operations' term of the arguments -/

theorem V_v1_eq (c : Dev nD) : (V m c main_v1 : S512x1024.Idx → EReal)
    = transpose S512x1024 [1, 0] (argW1 m c) transposes_S1024x512_S512x1024_1_0 := by
  dsimp only [Gen.V, Gen.hostOps0]; after_results <;> rfl

theorem V_v7_eq (c : Dev nD) : (V m c main_v7 : S1x1024.Idx → EReal)
    = shapeCast S1x1024 (argB1 m c) shapeCasts_S1024_S1x1024 := by
  dsimp only [Gen.V, Gen.hostOps0]; after_results; rfl

theorem V_v4_eq (c : Dev nD) : (V m c main_v4 : S1024x512.Idx → EReal)
    = transpose S1024x512 [1, 0]
        (concatenate S512x1024 0 [⟨S256x1024, argWmu m c⟩, ⟨S256x1024, argWlv m c⟩] concatenates_S256x1024_S256x1024_S512x1024_d0)
        transposes_S512x1024_S1024x512_1_0 := by
  dsimp only [Gen.V, Gen.hostOps0]; after_results <;> rfl

theorem V_v6_eq (c : Dev nD) : (V m c main_v6 : S1x512.Idx → EReal)
    = shapeCast S1x512 (concatenate S512 0 [⟨S256, argBmu m c⟩, ⟨S256, argBlv m c⟩] concatenates_S256_S256_S512_d0)
        shapeCasts_S512_S1x512 := by
  dsimp only [Gen.V, Gen.hostOps0]; after_results; rfl

/-! ## The layout operations read at coordinates, over arbitrary arrays -/

/-- A transposed matrix at `(p, q)` is the matrix at `(q, p)`. -/
theorem transpose_ix2 {n0 n1 : Nat} (X : (⟨2, ![n0, n1]⟩ : Shape).Idx → EReal)
    (h : (⟨2, ![n0, n1]⟩ : Shape).Transposes [1, 0] (⟨2, ![n1, n0]⟩ : Shape)) (p : Fin n1) (q : Fin n0) :
    transpose (⟨2, ![n1, n0]⟩ : Shape) [1, 0] X h (ix2 p q) = X (ix2 q p) := by
  refine transpose_apply _ X h (ix2 p q) (ix2 q p) ?_
  intro b
  match b with
  | ⟨0, _⟩ => rfl
  | ⟨1, _⟩ => rfl

/-- Two arrays stacked along their rows, at a row of the first. -/
theorem concat_rows_left (X Y : S256x1024.Idx → EReal) (l : Fin 256) (j : Fin 1024) (hl : l.val < 512) :
    concatenate S512x1024 0 [⟨S256x1024, X⟩, ⟨S256x1024, Y⟩] concatenates_S256x1024_S256x1024_S512x1024_d0
      (ix2 (⟨l.val, hl⟩ : Fin 512) j) = X (ix2 l j) := by
  refine concatenate_pair_apply_left (t := S512x1024) (0 : Fin 2) X Y concatenates_S256x1024_S256x1024_S512x1024_d0
    (ix2 (⟨l.val, hl⟩ : Fin 512) j) rfl (ix2 l j) ?_
  intro b
  match b with
  | ⟨0, _⟩ => rfl
  | ⟨1, _⟩ => rfl

/-- Two arrays stacked along their rows, at a row of the second. -/
theorem concat_rows_right (X Y : S256x1024.Idx → EReal) (l : Fin 256) (j : Fin 1024) (hl : l.val + 256 < 512) :
    concatenate S512x1024 0 [⟨S256x1024, X⟩, ⟨S256x1024, Y⟩] concatenates_S256x1024_S256x1024_S512x1024_d0
      (ix2 (⟨l.val + 256, hl⟩ : Fin 512) j) = Y (ix2 l j) := by
  refine concatenate_pair_apply_right (t := S512x1024) (0 : Fin 2) X Y concatenates_S256x1024_S256x1024_S512x1024_d0
    (ix2 (⟨l.val + 256, hl⟩ : Fin 512) j) rfl rfl (ix2 l j) ?_ ?_
  · intro b hb
    match b with
    | ⟨0, _⟩ => exact absurd rfl hb
    | ⟨1, _⟩ => rfl
  · rfl

/-- Two vectors stacked, at an entry of the first. -/
theorem concat_vec_left (X Y : S256.Idx → EReal) (l : Fin 256) (hl : l.val < 512) :
    concatenate S512 0 [⟨S256, X⟩, ⟨S256, Y⟩] concatenates_S256_S256_S512_d0 (ix1 (⟨l.val, hl⟩ : Fin 512)) = X (ix1 l) := by
  refine concatenate_pair_apply_left (t := S512) (0 : Fin 1) X Y concatenates_S256_S256_S512_d0
    (ix1 (⟨l.val, hl⟩ : Fin 512)) rfl (ix1 l) ?_
  intro b
  match b with
  | ⟨0, _⟩ => rfl

/-- Two vectors stacked, at an entry of the second. -/
theorem concat_vec_right (X Y : S256.Idx → EReal) (l : Fin 256) (hl : l.val + 256 < 512) :
    concatenate S512 0 [⟨S256, X⟩, ⟨S256, Y⟩] concatenates_S256_S256_S512_d0 (ix1 (⟨l.val + 256, hl⟩ : Fin 512)) = Y (ix1 l) := by
  refine concatenate_pair_apply_right (t := S512) (0 : Fin 1) X Y concatenates_S256_S256_S512_d0
    (ix1 (⟨l.val + 256, hl⟩ : Fin 512)) rfl rfl (ix1 l) ?_ ?_
  · intro b hb
    match b with
    | ⟨0, _⟩ => exact absurd rfl hb
  · rfl

/-- A vector laid out as a one-row matrix, at `(0, q)`. -/
theorem row_of_vec {n : Nat} (X : (⟨1, ![n]⟩ : Shape).Idx → EReal)
    (h : (⟨1, ![n]⟩ : Shape).ShapeCasts (⟨2, ![1, n]⟩ : Shape)) (q : Fin n) :
    shapeCast (⟨2, ![1, n]⟩ : Shape) X h (ix2 (0 : Fin 1) q) = X (ix1 q) := by
  refine shapeCast_apply X h (ix2 (0 : Fin 1) q) (ix1 q) ?_
  rw [Shape.rowMajor_val_one, Shape.rowMajor_val_two]
  show q.val = (0 : Fin 1).val * n + q.val
  simp

/-! ## The host-written arrays at coordinates -/

/-- The transposed hidden-layer weights. -/
theorem V_v1_apply (c : Dev nD) (k : Fin 512) (j : Fin 1024) :
    (V m c main_v1 : S512x1024.Idx → EReal) (ix2 k j) = argW1 m c (ix2 j k) := by
  rw [V_v1_eq]
  exact transpose_ix2 (argW1 m c) transposes_S1024x512_S512x1024_1_0 k j

/-- The hidden layer's bias as a row. -/
theorem V_v7_apply (c : Dev nD) (j : Fin 1024) :
    (V m c main_v7 : S1x1024.Idx → EReal) (ix2 (0 : Fin 1) j) = argB1 m c (ix1 j) := by
  rw [V_v7_eq]
  exact row_of_vec (argB1 m c) shapeCasts_S1024_S1x1024 j

/-- The stacked, transposed head weights at a column of the first head. -/
theorem V_v4_apply_mu (c : Dev nD) (j : Fin 1024) (l : Fin 256) (hl : l.val < 512) :
    (V m c main_v4 : S1024x512.Idx → EReal) (ix2 j (⟨l.val, hl⟩ : Fin 512)) = argWmu m c (ix2 l j) := by
  rw [V_v4_eq]
  refine (transpose_ix2 _ transposes_S512x1024_S1024x512_1_0 j (⟨l.val, hl⟩ : Fin 512)).trans ?_
  exact concat_rows_left (argWmu m c) (argWlv m c) l j hl

/-- The stacked, transposed head weights at a column of the second head. -/
theorem V_v4_apply_lv (c : Dev nD) (j : Fin 1024) (l : Fin 256) (hl : l.val + 256 < 512) :
    (V m c main_v4 : S1024x512.Idx → EReal) (ix2 j (⟨l.val + 256, hl⟩ : Fin 512)) = argWlv m c (ix2 l j) := by
  rw [V_v4_eq]
  refine (transpose_ix2 _ transposes_S512x1024_S1024x512_1_0 j (⟨l.val + 256, hl⟩ : Fin 512)).trans ?_
  exact concat_rows_right (argWmu m c) (argWlv m c) l j hl

/-- The stacked head biases as a row, at an entry of the first head. -/
theorem V_v6_apply_mu (c : Dev nD) (l : Fin 256) (hl : l.val < 512) :
    (V m c main_v6 : S1x512.Idx → EReal) (ix2 (0 : Fin 1) (⟨l.val, hl⟩ : Fin 512)) = argBmu m c (ix1 l) := by
  rw [V_v6_eq]
  refine (row_of_vec _ shapeCasts_S512_S1x512 (⟨l.val, hl⟩ : Fin 512)).trans ?_
  exact concat_vec_left (argBmu m c) (argBlv m c) l hl

/-- The stacked head biases as a row, at an entry of the second head. -/
theorem V_v6_apply_lv (c : Dev nD) (l : Fin 256) (hl : l.val + 256 < 512) :
    (V m c main_v6 : S1x512.Idx → EReal) (ix2 (0 : Fin 1) (⟨l.val + 256, hl⟩ : Fin 512)) = argBlv m c (ix1 l) := by
  rw [V_v6_eq]
  refine (row_of_vec _ shapeCasts_S512_S1x512 (⟨l.val + 256, hl⟩ : Fin 512)).trans ?_
  exact concat_vec_right (argBmu m c) (argBlv m c) l hl

end Cert.Gcn.Ker
end
-- ==== Proof.GcnBlocks.lean ====
/-
  From the pallas_call's blocks to its two result arrays.

  The grid is the 64 batch elements in order. At point `t` the first two windows hold batch element `t` of the adjacency
  matrices and of the node features; the next four hold, whole, the arrays the host wrote before the region (the transposed
  hidden-layer weights, the hidden-layer bias as a row, the two heads' weights stacked and transposed, the two heads'
  biases stacked as a row). The body leaves in each result window's block the stacked heads' columns of one head plus that
  head's bias; with the body's arithmetic given as the block formula `blockOut`, that block is block `t` of the head's
  output as the kernel arranges it (`outK`). The 64 blocks tile each result array, so after the run the two result arrays
  are the two heads' outputs.
-/
import proofs.«179284_j4612794876702_2_alg».proof.Proof.GcnWindows

-- the facts decided over the grid's points one at a time
set_option Elab.async false

noncomputable section

namespace Cert.Gcn.Ker

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The adjacency matrices. -/
abbrev argA (c : Dev nD) : S64x1024x1024.Idx → EReal := m ((c : Thread nD τ).loc main_arg1)
/-- The node features. -/
abbrev argX (c : Dev nD) : S64x1024x512.Idx → EReal := m ((c : Thread nD τ).loc main_arg0)

theorem hz3 : (![0, 0, 0] : Fin 3 → Nat) = fun _ => 0 := funext fun a => by fin_cases a <;> rfl
theorem hz2 : (![0, 0] : Fin 2 → Nat) = fun _ => 0 := funext fun a => by fin_cases a <;> rfl

/-- The batch element a grid point works on: the grid is the 64 batch elements in order. -/
abbrev bt (t : Fin cfg0.N) : Fin 64 := Fin.cast N_0 t

/-! ## The printed index maps, decided over the grid -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)

/-! ## The input windows' blocks at a grid point -/

/-- Window 0's block at point `t` is batch element `t` of the adjacency matrices. -/
theorem iblk0_apply (c : Dev nD) (t : Fin cfg0.N) (n mm : Fin 1024) :
    (iblk m c 0 t : Vec Ideal S1x1024x1024 .f32) (ix3 (0 : Fin 1) n mm) = argA m c (ix3 (bt t) n mm) := by
  obtain ⟨e0, e1, e2⟩ := idx0 t
  unfold iblk
  rw [View.read_apply]
  show V m c main_arg1 _ = _
  rw [V_main_arg1]
  refine congrArg (m ((c : Thread nD τ).loc main_arg1)) (funext fun a => Fin.ext ?_)
  match a with
  | ⟨0, _⟩ => show win0_0.index t (0 : Fin 3) * 1 + 1 * (0 : Fin 1).val = t.val; rw [e0]; simp
  | ⟨1, _⟩ => show win0_0.index t (1 : Fin 3) * 1024 + 1 * n.val = n.val; omega
  | ⟨2, _⟩ => show win0_0.index t (2 : Fin 3) * 1024 + 1 * mm.val = mm.val; omega

/-- Window 1's block at point `t` is batch element `t` of the node features. -/
theorem iblk1_apply (c : Dev nD) (t : Fin cfg0.N) (n : Fin 1024) (k : Fin 512) :
    (iblk m c 1 t : Vec Ideal S1x1024x512 .f32) (ix3 (0 : Fin 1) n k) = argX m c (ix3 (bt t) n k) := by
  obtain ⟨e0, e1, e2⟩ := idx1 t
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t (0 : Fin 3) * 1 + 1 * (0 : Fin 1).val = t.val; rw [e0]; simp
  | ⟨1, _⟩ => show win0_1.index t (1 : Fin 3) * 1024 + 1 * n.val = n.val; omega
  | ⟨2, _⟩ => show win0_1.index t (2 : Fin 3) * 512 + 1 * k.val = k.val; omega

/-- Window 2's block is the whole transposed hidden-layer weights, at every point. -/
theorem iblk2_apply (c : Dev nD) (t : Fin cfg0.N) (k : Fin 512) (j : Fin 1024) :
    (iblk m c 2 t : Vec Ideal S512x1024 .bf16) (ix2 k j) = (V m c main_v1 : S512x1024.Idx → EReal) (ix2 k j) := by
  obtain ⟨e0, e1⟩ := idx2 t
  unfold iblk
  rw [View.read_apply]
  show V m c main_v1 _ = _
  refine congrArg (V m c main_v1) (funext fun a => Fin.ext ?_)
  match a with
  | ⟨0, _⟩ => show win0_2.index t (0 : Fin 2) * 512 + 1 * k.val = k.val; omega
  | ⟨1, _⟩ => show win0_2.index t (1 : Fin 2) * 1024 + 1 * j.val = j.val; omega

/-- Window 3's block is the whole bias row, at every point. -/
theorem iblk3_apply (c : Dev nD) (t : Fin cfg0.N) (j : Fin 1024) :
    (iblk m c 3 t : Vec Ideal S1x1024 .f32) (ix2 (0 : Fin 1) j) = (V m c main_v7 : S1x1024.Idx → EReal) (ix2 (0 : Fin 1) j) := by
  obtain ⟨e0, e1⟩ := idx3 t
  unfold iblk
  rw [View.read_apply]
  show V m c main_v7 _ = _
  refine congrArg (V m c main_v7) (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 1024 + 1 * j.val = j.val; omega

/-- Window 4's block is the whole stacked, transposed head weights, at every point. -/
theorem iblk4_apply (c : Dev nD) (t : Fin cfg0.N) (j : Fin 1024) (q : Fin 512) :
    (iblk m c 4 t : Vec Ideal S1024x512 .bf16) (ix2 j q) = (V m c main_v4 : S1024x512.Idx → EReal) (ix2 j q) := by
  obtain ⟨e0, e1⟩ := idx4 t
  unfold iblk
  rw [View.read_apply]
  show V m c main_v4 _ = _
  refine congrArg (V m c main_v4) (funext fun a => Fin.ext ?_)
  match a with
  | ⟨0, _⟩ => show win0_4.index t (0 : Fin 2) * 1024 + 1 * j.val = j.val; omega
  | ⟨1, _⟩ => show win0_4.index t (1 : Fin 2) * 512 + 1 * q.val = q.val; omega

/-- Window 5's block is the whole stacked head-bias row, at every point. -/
theorem iblk5_apply (c : Dev nD) (t : Fin cfg0.N) (q : Fin 512) :
    (iblk m c 5 t : Vec Ideal S1x512 .f32) (ix2 (0 : Fin 1) q) = (V m c main_v6 : S1x512.Idx → EReal) (ix2 (0 : Fin 1) q) := by
  obtain ⟨e0, e1⟩ := idx5 t
  unfold iblk
  rw [View.read_apply]
  show V m c main_v6 _ = _
  refine congrArg (V m c main_v6) (funext fun a => Fin.ext ?_)
  match a with
  | ⟨0, _⟩ => show win0_5.index t (0 : Fin 2) * 1 + 1 * (0 : Fin 1).val = (0 : Fin 1).val; omega
  | ⟨1, _⟩ => show win0_5.index t (1 : Fin 2) * 512 + 1 * q.val = q.val; omega

/-! ## One grid point's formulas are the result at the point's batch element -/

/-- When the blocks hold batch element `b` of `a` and `x`, the transposed `W1`, `b1` as a row, and in column `q` of the
    stacked heads the weights and bias of row `l` of a head `(W, β)`, the block's entry `(n, q)` plus the bias is the
    head's output at `(b, n, l)`: the block formulas are the array formulas with the blocks' entries renamed. -/
theorem block_eq_outK (a : SA.Idx → EReal) (x : SX.Idx → EReal) (W1 : SW1.Idx → EReal) (b1 : SB1.Idx → EReal)
    (W : SWh.Idx → EReal) (β : SBh.Idx → EReal)
    (P0 : SP0.Idx → EReal) (P1 : SP1.Idx → EReal) (P2 : SP2.Idx → EReal) (P3 : SP3.Idx → EReal) (P4 : SP4.Idx → EReal)
    (P5 : SP5.Idx → EReal) (b : Fin 64) (n : Fin 1024) (q : Fin 512) (l : Fin 256)
    (h0 : ∀ (n mm : Fin 1024), P0 (ix3 (0 : Fin 1) n mm) = a (ix3 b n mm))
    (h1 : ∀ (n : Fin 1024) (k : Fin 512), P1 (ix3 (0 : Fin 1) n k) = x (ix3 b n k))
    (h2 : ∀ (k : Fin 512) (j : Fin 1024), P2 (ix2 k j) = W1 (ix2 j k))
    (h3 : ∀ j : Fin 1024, P3 (ix2 (0 : Fin 1) j) = b1 (ix1 j))
    (h4 : ∀ j : Fin 1024, P4 (ix2 j q) = W (ix2 l j))
    (h5 : P5 (ix2 (0 : Fin 1) q) = β (ix1 l)) :
    blockOut P0 P1 P2 P3 P4 n q + P5 (ix2 (0 : Fin 1) q) = outK a x W1 b1 W β (ix3 b n l) := by
  have hd : ∀ n : Fin 1024, dB P0 n = dK a b n := fun n => by
    simp only [dB, dK, vK, h0]
  have hh : ∀ (n : Fin 1024) (k : Fin 512), hB P0 P1 n k = hK a x b n k := fun n k => by
    simp only [hB, hK, hd, h0, h1]
  show blockOut P0 P1 P2 P3 P4 n q + P5 (ix2 (0 : Fin 1) q) = head (hK a x b) W1 b1 W β n l
  simp only [blockOut, head, hh, h2, h3, h4, h5]

/-! ## What a grid point leaves in its result blocks -/

/-- The body's arithmetic: its payload at `(n, q)` is the block formula `blockOut`. -/
abbrev PayloadIsBlockOut : Prop :=
  ∀ (P0 : Vec Ideal S1x1024x1024 .f32) (P1 : Vec Ideal S1x1024x512 .f32) (P2 : Vec Ideal S512x1024 .bf16)
    (P3 : Vec Ideal S1x1024 .f32) (P4 : Vec Ideal S1024x512 .bf16) (n : Fin 1024) (q : Fin 512),
    k0_pay4 (F := Ideal) P0 P1 P2 P3 P4 (ix2 n q) = Cert.Gcn.blockOut P0 P1 P2 P3 P4 n q

/-- The first result's block, over arbitrary input blocks that hold batch element `b` and the first head `(W, β)` in the
    stacked columns below 256: entry `(n, l)` is the head's output at `(b, n, l)`. -/
theorem out6_at (hpay : PayloadIsBlockOut) (a : SA.Idx → EReal) (x : SX.Idx → EReal) (W1 : SW1.Idx → EReal) (b1 : SB1.Idx → EReal)
    (W : SWh.Idx → EReal) (β : SBh.Idx → EReal)
    (P0 : Vec Ideal S1x1024x1024 .f32) (P1 : Vec Ideal S1x1024x512 .f32) (P2 : Vec Ideal S512x1024 .bf16)
    (P3 : Vec Ideal S1x1024 .f32) (P4 : Vec Ideal S1024x512 .bf16) (P5 : Vec Ideal S1x512 .f32) (b : Fin 64)
    (h0 : ∀ (n mm : Fin 1024), P0 (ix3 (0 : Fin 1) n mm) = a (ix3 b n mm))
    (h1 : ∀ (n : Fin 1024) (k : Fin 512), P1 (ix3 (0 : Fin 1) n k) = x (ix3 b n k))
    (h2 : ∀ (k : Fin 512) (j : Fin 1024), P2 (ix2 k j) = W1 (ix2 j k))
    (h3 : ∀ j : Fin 1024, P3 (ix2 (0 : Fin 1) j) = b1 (ix1 j))
    (h4 : ∀ (j : Fin 1024) (l : Fin 256) (hl : l.val < 512), P4 (ix2 j (⟨l.val, hl⟩ : Fin 512)) = W (ix2 l j))
    (h5 : ∀ (l : Fin 256) (hl : l.val < 512), P5 (ix2 (0 : Fin 1) (⟨l.val, hl⟩ : Fin 512)) = β (ix1 l))
    (n : Fin 1024) (l : Fin 256) :
    out0_6 P0 P1 P2 P3 P4 P5 (ix3 (0 : Fin 1) n l) = outK a x W1 b1 W β (ix3 b n l) := by
  have hl : l.val < 512 := by have := l.isLt; omega
  unfold out0_6
  simp only [View.ld_unit_zero (S := S1x1024x1024) hz3, View.ld_unit_zero (S := S1x1024x512) hz3,
    View.ld_unit_zero (S := S512x1024) hz2, View.ld_unit_zero (S := S1x1024) hz2,
    View.ld_unit_zero (S := S1024x512) hz2, View.ld_unit_zero (S := S1x512) hz2]
  rw [Value.canon6_eq]
  have i0 : Value.ix6_0 (ix3 (0 : Fin 1) n l) = ix2 n (⟨l.val, hl⟩ : Fin 512) :=
    funext fun a => by match a with | ⟨0, _⟩ => rfl | ⟨1, _⟩ => rfl
  have i1 : Value.ix6_1 (ix3 (0 : Fin 1) n l) = ix2 (0 : Fin 1) (⟨l.val, hl⟩ : Fin 512) :=
    funext fun a => by match a with | ⟨0, _⟩ => rfl | ⟨1, _⟩ => rfl
  show k0_pay4 P0 P1 P2 P3 P4 (Value.ix6_0 (ix3 (0 : Fin 1) n l)) + P5 (Value.ix6_1 (ix3 (0 : Fin 1) n l)) = _
  rw [i0, i1, hpay]
  exact block_eq_outK a x W1 b1 W β P0 P1 P2 P3 P4 P5 b n ⟨l.val, hl⟩ l h0 h1 h2 h3 (fun j => h4 j l hl) (h5 l hl)

/-- The second result's block: the same with the second head in the stacked columns from 256 on. -/
theorem out7_at (hpay : PayloadIsBlockOut) (a : SA.Idx → EReal) (x : SX.Idx → EReal) (W1 : SW1.Idx → EReal) (b1 : SB1.Idx → EReal)
    (W : SWh.Idx → EReal) (β : SBh.Idx → EReal)
    (P0 : Vec Ideal S1x1024x1024 .f32) (P1 : Vec Ideal S1x1024x512 .f32) (P2 : Vec Ideal S512x1024 .bf16)
    (P3 : Vec Ideal S1x1024 .f32) (P4 : Vec Ideal S1024x512 .bf16) (P5 : Vec Ideal S1x512 .f32) (b : Fin 64)
    (h0 : ∀ (n mm : Fin 1024), P0 (ix3 (0 : Fin 1) n mm) = a (ix3 b n mm))
    (h1 : ∀ (n : Fin 1024) (k : Fin 512), P1 (ix3 (0 : Fin 1) n k) = x (ix3 b n k))
    (h2 : ∀ (k : Fin 512) (j : Fin 1024), P2 (ix2 k j) = W1 (ix2 j k))
    (h3 : ∀ j : Fin 1024, P3 (ix2 (0 : Fin 1) j) = b1 (ix1 j))
    (h4 : ∀ (j : Fin 1024) (l : Fin 256) (hl : l.val + 256 < 512), P4 (ix2 j (⟨l.val + 256, hl⟩ : Fin 512)) = W (ix2 l j))
    (h5 : ∀ (l : Fin 256) (hl : l.val + 256 < 512), P5 (ix2 (0 : Fin 1) (⟨l.val + 256, hl⟩ : Fin 512)) = β (ix1 l))
    (n : Fin 1024) (l : Fin 256) :
    out0_7 P0 P1 P2 P3 P4 P5 (ix3 (0 : Fin 1) n l) = outK a x W1 b1 W β (ix3 b n l) := by
  have hl : l.val + 256 < 512 := by have := l.isLt; omega
  unfold out0_7
  simp only [View.ld_unit_zero (S := S1x1024x1024) hz3, View.ld_unit_zero (S := S1x1024x512) hz3,
    View.ld_unit_zero (S := S512x1024) hz2, View.ld_unit_zero (S := S1x1024) hz2,
    View.ld_unit_zero (S := S1024x512) hz2, View.ld_unit_zero (S := S1x512) hz2]
  rw [Value.canon7_eq]
  have i0 : Value.ix7_0 (ix3 (0 : Fin 1) n l) = ix2 n (⟨l.val + 256, hl⟩ : Fin 512) :=
    funext fun a => by match a with | ⟨0, _⟩ => rfl | ⟨1, _⟩ => rfl
  have i1 : Value.ix7_1 (ix3 (0 : Fin 1) n l) = ix2 (0 : Fin 1) (⟨l.val + 256, hl⟩ : Fin 512) :=
    funext fun a => by match a with | ⟨0, _⟩ => rfl | ⟨1, _⟩ => rfl
  show k0_pay4 P0 P1 P2 P3 P4 (Value.ix7_0 (ix3 (0 : Fin 1) n l)) + P5 (Value.ix7_1 (ix3 (0 : Fin 1) n l)) = _
  rw [i0, i1, hpay]
  exact block_eq_outK a x W1 b1 W β P0 P1 P2 P3 P4 P5 b n ⟨l.val + 256, hl⟩ l h0 h1 h2 h3 (fun j => h4 j l hl) (h5 l hl)

/-- WHAT POINT `t` WRITES BACK to the first result is block `t` of the first head's output. -/
theorem flushed_eq6 (hpay : PayloadIsBlockOut) (c : Dev nD) (t : Fin cfg0.N) :
    (dats m 0 c).flushed 6 t = ((cfg0.win 6).blk t).view.read (Elt Ideal)
      (outK (argA m c) (argX m c) (argW1 m c) (argB1 m c) (argWmu m c) (argBmu m c)) := by
  rw [Value.flushed6]
  obtain ⟨e0, e1, e2⟩ := idx6 t
  funext y
  obtain ⟨z, n, l, rfl⟩ : ∃ (z : Fin 1) (n : Fin 1024) (l : Fin 256), y = ix3 z n l :=
    ⟨y 0, y 1, y 2, eq_ix3 (n0 := 1) (n1 := 1024) (n2 := 256) y⟩
  obtain rfl : z = 0 := Subsingleton.elim _ _
  rw [View.read_apply]
  show out0_6 (iblk m c 0 t) (iblk m c 1 t) (iblk m c 2 t) (iblk m c 3 t) (iblk m c 4 t) (iblk m c 5 t) (ix3 (0 : Fin 1) n l) = _
  refine (out6_at hpay (argA m c) (argX m c) (argW1 m c) (argB1 m c) (argWmu m c) (argBmu m c)
    (iblk m c 0 t) (iblk m c 1 t) (iblk m c 2 t) (iblk m c 3 t) (iblk m c 4 t) (iblk m c 5 t) (bt t)
    (iblk0_apply m c t) (iblk1_apply m c t)
    (fun k j => (iblk2_apply m c t k j).trans (V_v1_apply m c k j))
    (fun j => (iblk3_apply m c t j).trans (V_v7_apply m c j))
    (fun j l hl => (iblk4_apply m c t j ⟨l.val, hl⟩).trans (V_v4_apply_mu m c j l hl))
    (fun l hl => (iblk5_apply m c t ⟨l.val, hl⟩).trans (V_v6_apply_mu m c l hl)) n l).trans ?_
  refine congrArg (outK (argA m c) (argX m c) (argW1 m c) (argB1 m c) (argWmu m c) (argBmu m c)) (funext fun a => Fin.ext ?_)
  match a with
  | ⟨0, _⟩ => show t.val = win0_6.index t (0 : Fin 3) * 1 + 1 * (0 : Fin 1).val; rw [e0]; simp
  | ⟨1, _⟩ => show n.val = win0_6.index t (1 : Fin 3) * 1024 + 1 * n.val; omega
  | ⟨2, _⟩ => show l.val = win0_6.index t (2 : Fin 3) * 256 + 1 * l.val; omega

/-- WHAT POINT `t` WRITES BACK to the second result is block `t` of the second head's output. -/
theorem flushed_eq7 (hpay : PayloadIsBlockOut) (c : Dev nD) (t : Fin cfg0.N) :
    (dats m 0 c).flushed 7 t = ((cfg0.win 7).blk t).view.read (Elt Ideal)
      (outK (argA m c) (argX m c) (argW1 m c) (argB1 m c) (argWlv m c) (argBlv m c)) := by
  rw [Value.flushed7]
  obtain ⟨e0, e1, e2⟩ := idx7 t
  funext y
  obtain ⟨z, n, l, rfl⟩ : ∃ (z : Fin 1) (n : Fin 1024) (l : Fin 256), y = ix3 z n l :=
    ⟨y 0, y 1, y 2, eq_ix3 (n0 := 1) (n1 := 1024) (n2 := 256) y⟩
  obtain rfl : z = 0 := Subsingleton.elim _ _
  rw [View.read_apply]
  show out0_7 (iblk m c 0 t) (iblk m c 1 t) (iblk m c 2 t) (iblk m c 3 t) (iblk m c 4 t) (iblk m c 5 t) (ix3 (0 : Fin 1) n l) = _
  refine (out7_at hpay (argA m c) (argX m c) (argW1 m c) (argB1 m c) (argWlv m c) (argBlv m c)
    (iblk m c 0 t) (iblk m c 1 t) (iblk m c 2 t) (iblk m c 3 t) (iblk m c 4 t) (iblk m c 5 t) (bt t)
    (iblk0_apply m c t) (iblk1_apply m c t)
    (fun k j => (iblk2_apply m c t k j).trans (V_v1_apply m c k j))
    (fun j => (iblk3_apply m c t j).trans (V_v7_apply m c j))
    (fun j l hl => (iblk4_apply m c t j ⟨l.val + 256, hl⟩).trans (V_v4_apply_lv m c j l hl))
    (fun l hl => (iblk5_apply m c t ⟨l.val + 256, hl⟩).trans (V_v6_apply_lv m c l hl)) n l).trans ?_
  refine congrArg (outK (argA m c) (argX m c) (argW1 m c) (argB1 m c) (argWlv m c) (argBlv m c)) (funext fun a => Fin.ext ?_)
  match a with
  | ⟨0, _⟩ => show t.val = win0_7.index t (0 : Fin 3) * 1 + 1 * (0 : Fin 1).val; rw [e0]; simp
  | ⟨1, _⟩ => show n.val = win0_7.index t (1 : Fin 3) * 1024 + 1 * n.val; omega
  | ⟨2, _⟩ => show l.val = win0_7.index t (2 : Fin 3) * 256 + 1 * l.val; omega

/-! ## From the blocks to the arrays -/

/-- An index of the first result is in point `t`'s block iff each coordinate is in the block's range on its axis. -/
theorem mem_blk6 (t : Fin cfg0.N) (i : S64x1024x256.Idx) :
    i ∈ ((cfg0.win 6).blk t).view.set ↔ ∀ a : Fin 3, win0_6.index t a * S1x1024x256.size a ≤ (i a).val ∧ (i a).val < win0_6.index t a * S1x1024x256.size a + S1x1024x256.size a := by
  show i ∈ ((View.whole main_v8_0).slice (win0_6.rect t)).set ↔ _
  rw [View.set_slice_whole, Rect.mem_set_unit]
  exact Iff.rfl

/-- The same for the second result. -/
theorem mem_blk7 (t : Fin cfg0.N) (i : S64x1024x256.Idx) :
    i ∈ ((cfg0.win 7).blk t).view.set ↔ ∀ a : Fin 3, win0_7.index t a * S1x1024x256.size a ≤ (i a).val ∧ (i a).val < win0_7.index t a * S1x1024x256.size a + S1x1024x256.size a := by
  show i ∈ ((View.whole main_v8_1).slice (win0_7.rect t)).set ↔ _
  rw [View.set_slice_whole, Rect.mem_set_unit]
  exact Iff.rfl

/-- The grid point of a batch element. -/
abbrev pt (b : Fin 64) : Fin cfg0.N := Fin.cast N_0.symm b

/-- Every index of the first result is in the block of the point of its batch element. -/
theorem cover6 (i : S64x1024x256.Idx) :
    ∃ t : Fin cfg0.N, (cfg0.win 6).flush t = true ∧ i ∈ ((cfg0.win 6).blk t).view.set := by
  obtain ⟨b, n, l, rfl⟩ : ∃ (b : Fin 64) (n : Fin 1024) (l : Fin 256), i = ix3 b n l := ⟨i 0, i 1, i 2, eq_ix3 i⟩
  refine ⟨pt b, flush0_6 (pt b), ?_⟩
  rw [mem_blk6]
  obtain ⟨e0, e1, e2⟩ := idx6 (pt b)
  have hb : (pt b).val = b.val := rfl
  intro a
  match a with
  | ⟨0, _⟩ => show win0_6.index (pt b) (0 : Fin 3) * 1 ≤ b.val ∧ b.val < win0_6.index (pt b) (0 : Fin 3) * 1 + 1; omega
  | ⟨1, _⟩ => show win0_6.index (pt b) (1 : Fin 3) * 1024 ≤ n.val ∧ n.val < win0_6.index (pt b) (1 : Fin 3) * 1024 + 1024; have := n.isLt; omega
  | ⟨2, _⟩ => show win0_6.index (pt b) (2 : Fin 3) * 256 ≤ l.val ∧ l.val < win0_6.index (pt b) (2 : Fin 3) * 256 + 256; have := l.isLt; omega

/-- Every index of the second result is in the block of the point of its batch element. -/
theorem cover7 (i : S64x1024x256.Idx) :
    ∃ t : Fin cfg0.N, (cfg0.win 7).flush t = true ∧ i ∈ ((cfg0.win 7).blk t).view.set := by
  obtain ⟨b, n, l, rfl⟩ : ∃ (b : Fin 64) (n : Fin 1024) (l : Fin 256), i = ix3 b n l := ⟨i 0, i 1, i 2, eq_ix3 i⟩
  refine ⟨pt b, flush0_7 (pt b), ?_⟩
  rw [mem_blk7]
  obtain ⟨e0, e1, e2⟩ := idx7 (pt b)
  have hb : (pt b).val = b.val := rfl
  intro a
  match a with
  | ⟨0, _⟩ => show win0_7.index (pt b) (0 : Fin 3) * 1 ≤ b.val ∧ b.val < win0_7.index (pt b) (0 : Fin 3) * 1 + 1; omega
  | ⟨1, _⟩ => show win0_7.index (pt b) (1 : Fin 3) * 1024 ≤ n.val ∧ n.val < win0_7.index (pt b) (1 : Fin 3) * 1024 + 1024; have := n.isLt; omega
  | ⟨2, _⟩ => show win0_7.index (pt b) (2 : Fin 3) * 256 ≤ l.val ∧ l.val < win0_7.index (pt b) (2 : Fin 3) * 256 + 256; have := l.isLt; omega

/-- THE FIRST RESULT after the run: the first head's output. -/
theorem final6 (hpay : PayloadIsBlockOut) (c : Dev nD) :
    (dats m 0 c).arrAt 6 cfg0.N = outK (argA m c) (argX m c) (argW1 m c) (argB1 m c) (argWmu m c) (argBmu m c) :=
  (dats m 0 c).arrAt_eq_of_cover 6 (outK (argA m c) (argX m c) (argW1 m c) (argB1 m c) (argWmu m c) (argBmu m c))
    (fun t _ => flushed_eq6 m hpay c t) cover6

/-- THE SECOND RESULT after the run: the second head's output. -/
theorem final7 (hpay : PayloadIsBlockOut) (c : Dev nD) :
    (dats m 0 c).arrAt 7 cfg0.N = outK (argA m c) (argX m c) (argW1 m c) (argB1 m c) (argWlv m c) (argBlv m c) :=
  (dats m 0 c).arrAt_eq_of_cover 7 (outK (argA m c) (argX m c) (argW1 m c) (argB1 m c) (argWlv m c) (argBlv m c))
    (fun t _ => flushed_eq7 m hpay c t) cover7

/-! ## The run, read -/

/-- Every weakly fair execution of the kernel's program terminates with the two results at the two heads' outputs as the
    kernel arranges them, and the eight arguments unchanged. -/
theorem run (hpay : PayloadIsBlockOut) :
    θ_run Cert.KernelIdeal.defs (onTc (τ := τ) (main (F := Ideal))) ⟨m, fun _ => 0, ρ⟩ fun r => ∀ c : Dev nD,
      r.2.mem ((c : Thread nD τ).loc main_v8_0) = outK (argA m c) (argX m c) (argW1 m c) (argB1 m c) (argWmu m c) (argBmu m c)
      ∧ r.2.mem ((c : Thread nD τ).loc main_v8_1) = outK (argA m c) (argX m c) (argW1 m c) (argB1 m c) (argWlv m c) (argBlv m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run Cert.KernelIdeal.defs _ _).mono
    (fun r h c => ⟨(h c).1.trans (final6 m hpay c), (h c).2.1.trans (final7 m hpay c), (h c).2.2⟩)
    (Value.run_blocks m ρ)

end Cert.Gcn.Ker
end
-- ==== Proof.lean ====
/-
  A graph-convolution encoder, the kernel against its array-language reference, on the extended reals.

  For each of 64 batch elements, with `a` an N×N adjacency matrix (N = 1024) and `x` the N×512 node features:
  the degree of row `n` of `a + I` plus a stabiliser ε is `v n`, the normaliser is `d n = v n ^ (-1/2)`, message passing
  is `h = (D (a + I) D) x` with `D` the diagonal of the `d n`, then a dense layer with a rectifier and two linear
  heads (the two results). The reference forms `a + I`, scales it entry by entry and contracts; the kernel never forms
  `a + I`: it computes `d n · (a (d ∘ x))` and adds `d n² · x` for the identity, takes the normaliser as a reciprocal
  square root, computes both heads in one product against the stacked weights and slices the two results out of it.

  The precondition says every input is finite and every `v n` is positive, the domain of the reference's power with
  exponent -1/2: at `v n ≤ 0` the reciprocal square root and that power read differently, and the two programs' results
  then differ. Under it (GcnPre) the entries of `a` and `x` are real numbers and each `d n` is one positive real on both
  sides, so the two arrangements of the message passing agree (GcnAlgebra: distributing `a + I` and moving `d n` across
  the sum, which need real entries); everything after that is the same expression on both sides.

  The kernel's result arrays after its run are `outK` of the arguments: the body's arithmetic at an entry (GcnPayload),
  the arrays the host prepares before the call and each grid point's blocks (GcnWindows, GcnBlocks), and the blocks
  covering the arrays (GcnBlocks), over the generated run of the launch. The reference's are `outR` (GcnRef, over the
  generated run and its read lemmas). The three frame claims are the generated frames and the reference's run with the
  results dropped; no operation was rewritten in idealizing the kernel, so that claim is trivial.
-/
import proofs.«179284_j4612794876702_2_alg».proof.Defs
import proofs.«179284_j4612794876702_2_alg».proof.Proof.Gen.Kernel
import proofs.«179284_j4612794876702_2_alg».proof.Proof.Gen.Kernel.Skeleton
import proofs.«179284_j4612794876702_2_alg».proof.Proof.Gen.Kernel.Launch
import proofs.«179284_j4612794876702_2_alg».proof.Proof.Gen.Kernel.Points
import proofs.«179284_j4612794876702_2_alg».proof.Proof.Gen.Kernel.Frame
import proofs.«179284_j4612794876702_2_alg».proof.Proof.Gen.KernelIdeal
import proofs.«179284_j4612794876702_2_alg».proof.Proof.Gen.KernelIdeal.Skeleton
import proofs.«179284_j4612794876702_2_alg».proof.Proof.Gen.KernelIdeal.Launch
import proofs.«179284_j4612794876702_2_alg».proof.Proof.Gen.KernelIdeal.Points
import proofs.«179284_j4612794876702_2_alg».proof.Proof.Gen.KernelIdeal.Frame
import proofs.«179284_j4612794876702_2_alg».proof.Proof.Gen.ReferenceIdeal
import proofs.«179284_j4612794876702_2_alg».proof.Proof.Gen.Pre_finite_inputs
import proofs.«179284_j4612794876702_2_alg».proof.Proof.Gen.KernelIdeal.Value
import proofs.«179284_j4612794876702_2_alg».proof.Proof.Gen.ReferenceIdeal.Run
import proofs.«179284_j4612794876702_2_alg».proof.Proof.Gen.ReferenceIdeal.Read
import proofs.«179284_j4612794876702_2_alg».proof.Proof.GcnAlgebra
import proofs.«179284_j4612794876702_2_alg».proof.Proof.GcnPayload
import proofs.«179284_j4612794876702_2_alg».proof.Proof.GcnRef
import proofs.«179284_j4612794876702_2_alg».proof.Proof.GcnPre
import proofs.«179284_j4612794876702_2_alg».proof.Proof.GcnBlocks
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the two heads' outputs as the reference arranges them, `outR` of the arguments: the kernel
    ends at `outK`, which is `outR` under the precondition; the reference ends at `outR` of arguments that agree. -/
theorem algebraic : Cert.algebraic_KernelIdeal_ReferenceIdeal := by
  intro m ρ m' ρ' hpre hagree
  refine ⟨fun c => Cert.Gcn.outR (m ((c.tc : Thread Cert.KernelIdeal.nD Cert.KernelIdeal.τ).loc Cert.KernelIdeal.main_arg1)) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Gcn.outR (m ((c.tc : Thread Cert.KernelIdeal.nD Cert.KernelIdeal.τ).loc Cert.KernelIdeal.main_arg1)) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_)
      (Cert.Gcn.Ker.run m ρ (fun P0 P1 P2 P3 P4 n q => Cert.Gcn.Pay.pay4_apply P0 P1 P2 P3 P4 n q))
    obtain ⟨hx, ha, hpos⟩ := Cert.Gcn.Pre.pre_facts _ _ _ _ _ _ _ _ (hpre c)
    exact ⟨(h c).1.trans (Cert.Gcn.outK_eq_outR _ _ _ _ _ _ ha hx hpos),
      (h c).2.1.trans (Cert.Gcn.outK_eq_outR _ _ _ _ _ _ ha hx hpos), (h c).2.2⟩
  · refine (θ_run Cert.ReferenceIdeal.defs _ _).mono (fun r h c => ?_)
      (Cert.ReferenceIdeal.Value.run (F := Ideal) m' ρ')
    obtain ⟨e0, e1, e2, e3, e4, e5, e6, e7⟩ := hagree c
    refine ⟨(h c).1.trans ?_, (h c).2.1.trans ?_, (h c).2.2⟩
    · rw [Cert.ReferenceIdeal.Read.val_main_v29_eq, Cert.Gcn.Ref.ref_mu, e0, e1, e2, e3, e4, e5]
    · rw [Cert.ReferenceIdeal.Read.val_main_v33_eq, Cert.Gcn.Ref.ref_lv, e0, e1, e2, e3, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
